-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15_0) = v0 c
          ∧ r.2.mem ((c.tc : Thread Cert.ReferenceIdeal.nD Cert.ReferenceIdeal.τ).loc Cert.ReferenceIdeal.main_v15_1) = v1 c
          ∧ r.2.mem ((c.tc : Thread Cert.ReferenceIdeal.nD Cert.ReferenceIdeal.τ).loc Cert.ReferenceIdeal.main_v15_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x10 : Shape := ⟨2, ![524288, 10]⟩
abbrev S10x10 : Shape := ⟨2, ![10, 10]⟩
abbrev S1x10 : Shape := ⟨2, ![1, 10]⟩
abbrev S10x16 : Shape := ⟨2, ![10, 16]⟩
abbrev S1x16 : Shape := ⟨2, ![1, 16]⟩
abbrev S_ : Shape := ⟨0, ![]⟩

class Facts : Prop where
  bcast_S_S524288x10 : S_.BroadcastsInDim S524288x10 (![] : Fin 0 → Fin S524288x10.rank)
  reducesTo_S524288x10_S_d0_1 : S524288x10.ReducesTo [0, 1] S_
  h_S_ : 0 < S_.numel
  bcast_S_S10x10 : S_.BroadcastsInDim S10x10 (![] : Fin 0 → Fin S10x10.rank)
  reducesTo_S10x10_S_d0_1 : S10x10.ReducesTo [0, 1] S_
  bcast_S_S1x10 : S_.BroadcastsInDim S1x10 (![] : Fin 0 → Fin S1x10.rank)
  reducesTo_S1x10_S_d0_1 : S1x10.ReducesTo [0, 1] S_
  bcast_S_S10x16 : S_.BroadcastsInDim S10x16 (![] : Fin 0 → Fin S10x16.rank)
  reducesTo_S10x16_S_d0_1 : S10x16.ReducesTo [0, 1] S_
  bcast_S_S1x16 : S_.BroadcastsInDim S1x16 (![] : Fin 0 → Fin S1x16.rank)
  reducesTo_S1x16_S_d0_1 : S1x16.ReducesTo [0, 1] S_

variable [Facts]

def fn_part3 {F : FTy → Type} [FloatOps F] (main_arg11 : FVec F S10x16 .f32) (main_arg12 : FVec F S1x16 .f32) (main_v48 : IVec S_ 1) (main_v49 : FVec F S1x10 .f32) (main_v50 : FVec F S1x10 .f32) : IVec S_ 1 :=
  let main_v51 : IVec S1x10 1 := cmpf .olt main_v49 main_v50
  let main_c_19 : IVec S_ 1 := constantI S_ 1 1#1
  let main_v52 : IVec S_ 1 := (fun x v => Host.reduce IntOp.andi x v reducesTo_S1x10_S_d0_1 h_S_) main_v51 main_c_19
  let main_v53 : IVec S_ 1 := andi main_v48 main_v52
  let main_v54 : FVec F S10x16 .f32 := Host.absf main_arg11
  let main_cst_20 : FVec F S_ .f32 := constant S_ .f32 0x7F800000#32
  let main_v55 : FVec F S10x16 .f32 := broadcastInDim S10x16 ![] bcast_S_S10x16 main_cst_20
  let main_v56 : IVec S10x16 1 := cmpf .olt main_v54 main_v55
  let main_c_21 : IVec S_ 1 := constantI S_ 1 1#1
  let main_v57 : IVec S_ 1 := (fun x v => Host.reduce IntOp.andi x v reducesTo_S10x16_S_d0_1 h_S_) main_v56 main_c_21
  let main_v58 : IVec S_ 1 := andi main_v53 main_v57
  let main_v59 : FVec F S1x16 .f32 := Host.absf main_arg12
  let main_cst_22 : FVec F S_ .f32 := constant S_ .f32 0x7F800000#32
  let main_v60 : FVec F S1x16 .f32 := broadcastInDim S1x16 ![] bcast_S_S1x16 main_cst_22
  let main_v61 : IVec S1x16 1 := cmpf .olt main_v59 main_v60
  let main_c_23 : IVec S_ 1 := constantI S_ 1 1#1
  let main_v62 : IVec S_ 1 := (fun x v => Host.reduce IntOp.andi x v reducesTo_S1x16_S_d0_1 h_S_) main_v61 main_c_23
  let main_v63 : IVec S_ 1 := andi main_v58 main_v62
  main_v63

def fn_part2 {F : FTy → Type} [FloatOps F] (main_arg7 : FVec F S10x16 .f32) (main_arg8 : FVec F S1x16 .f32) (main_arg9 : FVec F S10x10 .f32) (main_arg10 : FVec F S1x10 .f32) (main_arg11 : FVec F S10x16 .f32) (main_arg12 : FVec F S1x16 .f32) (main_v33 : IVec S_ 1) : IVec S_ 1 :=
  let main_v34 : FVec F S10x16 .f32 := Host.absf main_arg7
  let main_cst_12 : FVec F S_ .f32 := constant S_ .f32 0x7F800000#32
  let main_v35 : FVec F S10x16 .f32 := broadcastInDim S10x16 ![] bcast_S_S10x16 main_cst_12
  let main_v36 : IVec S10x16 1 := cmpf .olt main_v34 main_v35
  let main_c_13 : IVec S_ 1 := constantI S_ 1 1#1
  let main_v37 : IVec S_ 1 := (fun x v => Host.reduce IntOp.andi x v reducesTo_S10x16_S_d0_1 h_S_) main_v36 main_c_13
  let main_v38 : IVec S_ 1 := andi main_v33 main_v37
  let main_v39 : FVec F S1x16 .f32 := Host.absf main_arg8
  let main_cst_14 : FVec F S_ .f32 := constant S_ .f32 0x7F800000#32
  let main_v40 : FVec F S1x16 .f32 := broadcastInDim S1x16 ![] bcast_S_S1x16 main_cst_14
  let main_v41 : IVec S1x16 1 := cmpf .olt main_v39 main_v40
  let main_c_15 : IVec S_ 1 := constantI S_ 1 1#1
  let main_v42 : IVec S_ 1 := (fun x v => Host.reduce IntOp.andi x v reducesTo_S1x16_S_d0_1 h_S_) main_v41 main_c_15
  let main_v43 : IVec S_ 1 := andi main_v38 main_v42
  let main_v44 : FVec F S10x10 .f32 := Host.absf main_arg9
  let main_cst_16 : FVec F S_ .f32 := constant S_ .f32 0x7F800000#32
  let main_v45 : FVec F S10x10 .f32 := broadcastInDim S10x10 ![] bcast_S_S10x10 main_cst_16
  let main_v46 : IVec S10x10 1 := cmpf .olt main_v44 main_v45
  let main_c_17 : IVec S_ 1 := constantI S_ 1 1#1
  let main_v47 : IVec S_ 1 := (fun x v => Host.reduce IntOp.andi x v reducesTo_S10x10_S_d0_1 h_S_) main_v46 main_c_17
  let main_v48 : IVec S_ 1 := andi main_v43 main_v47
  let main_v49 : FVec F S1x10 .f32 := Host.absf main_arg10
  let main_cst_18 : FVec F S_ .f32 := constant S_ .f32 0x7F800000#32
  let main_v50 : FVec F S1x10 .f32 := broadcastInDim S1x10 ![] bcast_S_S1x10 main_cst_18
  fn_part3 (F := F) main_arg11 main_arg12 main_v48 main_v49 main_v50

def fn_part1 {F : FTy → Type} [FloatOps F] (main_arg4 : FVec F S1x16 .f32) (main_arg5 : FVec F S10x10 .f32) (main_arg6 : FVec F S1x10 .f32) (main_arg7 : FVec F S10x16 .f32) (main_arg8 : FVec F S1x16 .f32) (main_arg9 : FVec F S10x10 .f32) (main_arg10 : FVec F S1x10 .f32) (main_arg11 : FVec F S10x16 .f32) (main_arg12 : FVec F S1x16 .f32) (main_v13 : IVec S_ 1) (main_v16 : IVec S10x16 1) : IVec S_ 1 :=
  let main_c_5 : IVec S_ 1 := constantI S_ 1 1#1
  let main_v17 : IVec S_ 1 := (fun x v => Host.reduce IntOp.andi x v reducesTo_S10x16_S_d0_1 h_S_) main_v16 main_c_5
  let main_v18 : IVec S_ 1 := andi main_v13 main_v17
  let main_v19 : FVec F S1x16 .f32 := Host.absf main_arg4
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S10x10 .f32 := Host.absf main_arg5
  let main_cst_8 : FVec F S_ .f32 := constant S_ .f32 0x7F800000#32
  let main_v25 : FVec F S10x10 .f32 := broadcastInDim S10x10 ![] bcast_S_S10x10 main_cst_8
  let main_v26 : IVec S10x10 1 := cmpf .olt main_v24 main_v25
  let main_c_9 : IVec S_ 1 := constantI S_ 1 1#1
  let main_v27 : IVec S_ 1 := (fun x v => Host.reduce IntOp.andi x v reducesTo_S10x10_S_d0_1 h_S_) main_v26 main_c_9
  let main_v28 : IVec S_ 1 := andi main_v23 main_v27
  let main_v29 : FVec F S1x10 .f32 := Host.absf main_arg6
  let main_cst_10 : FVec F S_ .f32 := constant S_ .f32 0x7F800000#32
  let main_v30 : FVec F S1x10 .f32 := broadcastInDim S1x10 ![] bcast_S_S1x10 main_cst_10
  let main_v31 : IVec S1x10 1 := cmpf .olt main_v29 main_v30
  let main_c_11 : IVec S_ 1 := constantI S_ 1 1#1
  let main_v32 : IVec S_ 1 := (fun x v => Host.reduce IntOp.andi x v reducesTo_S1x10_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S524288x10 .f32) (main_arg1 : FVec F S10x10 .f32) (main_arg2 : FVec F S1x10 .f32) (main_arg3 : FVec F S10x16 .f32) (main_arg4 : FVec F S1x16 .f32) (main_arg5 : FVec F S10x10 .f32) (main_arg6 : FVec F S1x10 .f32) (main_arg7 : FVec F S10x16 .f32) (main_arg8 : FVec F S1x16 .f32) (main_arg9 : FVec F S10x10 .f32) (main_arg10 : FVec F S1x10 .f32) (main_arg11 : FVec F S10x16 .f32) (main_arg12 : FVec F S1x16 .f32) : IVec S_ 1 :=
  let main_v0 : FVec F S524288x10 .f32 := Host.absf main_arg0
  let main_cst : FVec F S_ .f32 := constant S_ .f32 0x7F800000#32
  let main_v1 : FVec F S524288x10 .f32 := broadcastInDim S524288x10 ![] bcast_S_S524288x10 main_cst
  let main_v2 : IVec S524288x10 1 := cmpf .olt main_v0 main_v1
  let main_c : IVec S_ 1 := constantI S_ 1 1#1
  let main_v3 : IVec S_ 1 := (fun x v => Host.reduce IntOp.andi x v reducesTo_S524288x10_S_d0_1 h_S_) main_v2 main_c
  let main_v4 : FVec F S10x10 .f32 := Host.absf main_arg1
  let main_cst_0 : FVec F S_ .f32 := constant S_ .f32 0x7F800000#32
  let main_v5 : FVec F S10x10 .f32 := broadcastInDim S10x10 ![] bcast_S_S10x10 main_cst_0
  let main_v6 : IVec S10x10 1 := cmpf .olt main_v4 main_v5
  let main_c_1 : IVec S_ 1 := constantI S_ 1 1#1
  let main_v7 : IVec S_ 1 := (fun x v => Host.reduce IntOp.andi x v reducesTo_S10x10_S_d0_1 h_S_) main_v6 main_c_1
  let main_v8 : IVec S_ 1 := andi main_v3 main_v7
  let main_v9 : FVec F S1x10 .f32 := Host.absf main_arg2
  let main_cst_2 : FVec F S_ .f32 := constant S_ .f32 0x7F800000#32
  let main_v10 : FVec F S1x10 .f32 := broadcastInDim S1x10 ![] bcast_S_S1x10 main_cst_2
  let main_v11 : IVec S1x10 1 := cmpf .olt main_v9 main_v10
  let main_c_3 : IVec S_ 1 := constantI S_ 1 1#1
  let main_v12 : IVec S_ 1 := (fun x v => Host.reduce IntOp.andi x v reducesTo_S1x10_S_d0_1 h_S_) main_v11 main_c_3
  let main_v13 : IVec S_ 1 := andi main_v8 main_v12
  let main_v14 : FVec F S10x16 .f32 := Host.absf main_arg3
  let main_cst_4 : FVec F S_ .f32 := constant S_ .f32 0x7F800000#32
  let main_v15 : FVec F S10x16 .f32 := broadcastInDim S10x16 ![] bcast_S_S10x16 main_cst_4
  let main_v16 : IVec S10x16 1 := cmpf .olt main_v14 main_v15
  fn_part1 (F := F) main_arg4 main_arg5 main_arg6 main_arg7 main_arg8 main_arg9 main_arg10 main_arg11 main_arg12 main_v13 main_v16
-- ==== Kernel.lean ====
abbrev S524288x10 : Shape := ⟨2, ![524288, 10]⟩
abbrev S10x10 : Shape := ⟨2, ![10, 10]⟩
abbrev S1x10 : Shape := ⟨2, ![1, 10]⟩
abbrev S10x16 : Shape := ⟨2, ![10, 16]⟩
abbrev S1x16 : Shape := ⟨2, ![1, 16]⟩
abbrev S10x30 : Shape := ⟨2, ![10, 30]⟩
abbrev S1x30 : Shape := ⟨2, ![1, 30]⟩
abbrev S_ : Shape := ⟨0, ![]⟩
abbrev S30x48 : Shape := ⟨2, ![30, 48]⟩
abbrev S1 : Shape := ⟨1, ![1]⟩
abbrev S2 : Shape := ⟨1, ![2]⟩
abbrev S1x48 : Shape := ⟨2, ![1, 48]⟩
abbrev S524288x16 : Shape := ⟨2, ![524288, 16]⟩
abbrev S4096x10 : Shape := ⟨2, ![4096, 10]⟩
abbrev S4096x16 : Shape := ⟨2, ![4096, 16]⟩
abbrev S4096x30 : Shape := ⟨2, ![4096, 30]⟩
abbrev S4096x48 : Shape := ⟨2, ![4096, 48]⟩
abbrev S4096 : Shape := ⟨1, ![4096]⟩
abbrev S4096x1 : Shape := ⟨2, ![4096, 1]⟩

abbrev nBuf : Space → Nat
  | .hbm => 39
  | .vmem => 12
  | .smem => 0
  | _ => 0

abbrev bufTy : (tb : Table) → Fin (tcTables nBuf tb) → BufTy
  | .hbm, ⟨0, _⟩ => ⟨S524288x10, .f32⟩
  | .hbm, ⟨1, _⟩ => ⟨S10x10, .f32⟩
  | .hbm, ⟨2, _⟩ => ⟨S1x10, .f32⟩
  | .hbm, ⟨3, _⟩ => ⟨S10x16, .f32⟩
  | .hbm, ⟨4, _⟩ => ⟨S1x16, .f32⟩
  | .hbm, ⟨5, _⟩ => ⟨S10x10, .f32⟩
  | .hbm, ⟨6, _⟩ => ⟨S1x10, .f32⟩
  | .hbm, ⟨7, _⟩ => ⟨S10x16, .f32⟩
  | .hbm, ⟨8, _⟩ => ⟨S1x16, .f32⟩
  | .hbm, ⟨9, _⟩ => ⟨S10x10, .f32⟩
  | .hbm, ⟨10, _⟩ => ⟨S1x10, .f32⟩
  | .hbm, ⟨11, _⟩ => ⟨S10x16, .f32⟩
  | .hbm, ⟨12, _⟩ => ⟨S1x16, .f32⟩
  | .hbm, ⟨13, _⟩ => ⟨S10x30, .f32⟩
  | .hbm, ⟨14, _⟩ => ⟨S1x30, .f32⟩
  | .hbm, ⟨15, _⟩ => ⟨S_, .f32⟩
  | .hbm, ⟨16, _⟩ => ⟨S30x48, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S30x48, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S30x48, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S30x48, .f32⟩
  | .hbm, ⟨35, _⟩ => ⟨S1x48, .f32⟩
  | .hbm, ⟨36, _⟩ => ⟨S524288x16, .f32⟩
  | .hbm, ⟨37, _⟩ => ⟨S524288x16, .f32⟩
  | .hbm, ⟨38, _⟩ => ⟨S524288x16, .f32⟩
  | .local _ .vmem, ⟨0, _⟩ => ⟨S4096x10, .f32⟩
  | .local _ .vmem, ⟨1, _⟩ => ⟨S4096x10, .f32⟩
  | .local _ .vmem, ⟨2, _⟩ => ⟨S10x30, .f32⟩
  | .local _ .vmem, ⟨3, _⟩ => ⟨S1x30, .f32⟩
  | .local _ .vmem, ⟨4, _⟩ => ⟨S30x48, .f32⟩
  | .local _ .vmem, ⟨5, _⟩ => ⟨S1x48, .f32⟩
  | .local _ .vmem, ⟨6, _⟩ => ⟨S4096x16, .f32⟩
  | .local _ .vmem, ⟨7, _⟩ => ⟨S4096x16, .f32⟩
  | .local _ .vmem, ⟨8, _⟩ => ⟨S4096x16, .f32⟩
  | .local _ .vmem, ⟨9, _⟩ => ⟨S4096x16, .f32⟩
  | .local _ .vmem, ⟨10, _⟩ => ⟨S4096x16, .f32⟩
  | .local _ .vmem, ⟨11, _⟩ => ⟨S4096x16, .f32⟩
  | _, _ => ⟨S524288x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_c_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_3 : Ref sig .tc := ⟨.hbm, 29, rfl⟩
abbrev main_v11 : Ref sig .tc := ⟨.hbm, 30, rfl⟩
abbrev main_c_4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16_0 : Ref sig .tc := ⟨.hbm, 36, rfl⟩
abbrev main_v16_1 : Ref sig .tc := ⟨.hbm, 37, rfl⟩
abbrev main_v16_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x30 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S30x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S10x10_S10x10_S10x10_S10x30_d1 : Shape.Concatenates [S10x10, S10x10, S10x10] S10x30 1
  concatenates_S1x10_S1x10_S1x10_S1x30_d1 : Shape.Concatenates [S1x10, S1x10, S1x10] S1x30 1
  bcast_S_S30x48 : S_.BroadcastsInDim S30x48 (![] : Fin 0 → Fin S30x48.rank)
  bcast_S_S1 : S_.BroadcastsInDim S1 (![] : Fin 0 → Fin S1.rank)
  concatenates_S1_S1_S2_d0 : Shape.Concatenates [S1, S1] S2 0
  concatenates_S1x16_S1x16_S1x16_S1x48_d1 : Shape.Concatenates [S1x16, S1x16, S1x16] S1x48 1
  inb_S4096x10_S4096x10_0_0 : ∀ a, (![0, 0] : Fin 2 → Nat) a + S4096x10.size a ≤ S4096x10.size a
  h_S4096x10 : 0 < S4096x10.numel
  inb_S10x30_S10x30_0_0 : ∀ a, (![0, 0] : Fin 2 → Nat) a + S10x30.size a ≤ S10x30.size a
  h_S10x30 : 0 < S10x30.numel
  shapeCasts_S10x30_S10x30 : S10x30.ShapeCasts S10x30
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S4096x30 : S1x30.Broadcasts S4096x30
  inb_S30x48_S30x48_0_0 : ∀ a, (![0, 0] : Fin 2 → Nat) a + S30x48.size a ≤ S30x48.size a
  h_S30x48 : 0 < S30x48.numel
  shapeCasts_S30x48_S30x48 : S30x48.ShapeCasts S30x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S4096x48 : S1x48.Broadcasts S4096x48
  slices_S4096x48_o0_0_S4096x16 : S4096x48.Slices ![0, 0] S4096x16
  inb_S4096x16_S4096x16_0_0 : ∀ a, (![0, 0] : Fin 2 → Nat) a + S4096x16.size a ≤ S4096x16.size a
  h_S4096x16 : 0 < S4096x16.numel
  slices_S4096x48_o0_16_S4096x16 : S4096x48.Slices ![0, 16] S4096x16
  slices_S4096x48_o0_32_S4096x16 : S4096x48.Slices ![0, 32] S4096x16
  reduces_S4096x16_S4096 : S4096x16.Reduces [1] S4096
  shapeCasts_S4096_S4096x1 : S4096.ShapeCasts S4096x1
  broadcasts_S4096x1_S4096x16 : S4096x1.Broadcasts S4096x16
  scatter_S30x48_S2_S10x16_01_n_01_0_wf : ScatterDims.WF S30x48 S2 S10x16 [0, 1] [] [0, 1] 0
  dot_S4096x10_S10x30_S4096x30_1_0_0_1_n_n_wf : DotDims.WF S4096x10 S10x30 S4096x30 [1] [0] [0] [1] [] []
  dot_S4096x30_S30x48_S4096x48_1_0_0_1_n_n_wf : DotDims.WF S4096x30 S30x48 S4096x48 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x10.size a ≤ S524288x10.size a
  hwx0_0 : ∀ i : grid0.Coords, EltTy.bits .f32 = 32 ∨ (Rect.block (s := S524288x10) S4096x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x30.size a ≤ S10x30.size a
  hwx0_1 : ∀ i : grid0.Coords, EltTy.bits .f32 = 32 ∨ (Rect.block (s := S10x30) S10x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x30.size a ≤ S1x30.size a
  hwx0_2 : ∀ i : grid0.Coords, EltTy.bits .f32 = 32 ∨ (Rect.block (s := S1x30) S1x30.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S30x48.size a ≤ S30x48.size a
  hwx0_3 : ∀ i : grid0.Coords, EltTy.bits .f32 = 32 ∨ (Rect.block (s := S30x48) S30x48.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x48.size a ≤ S1x48.size a
  hwx0_4 : ∀ i : grid0.Coords, EltTy.bits .f32 = 32 ∨ (Rect.block (s := S1x48) S1x48.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x16.size a ≤ S524288x16.size a
  hwx0_5 : ∀ i : grid0.Coords, EltTy.bits .f32 = 32 ∨ (Rect.block (s := S524288x16) S4096x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x16.size a ≤ S524288x16.size a
  hwx0_6 : ∀ i : grid0.Coords, EltTy.bits .f32 = 32 ∨ (Rect.block (s := S524288x16) S4096x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x16.size a ≤ S524288x16.size a
  hwx0_7 : ∀ i : grid0.Coords, EltTy.bits .f32 = 32 ∨ (Rect.block (s := S524288x16) S4096x16.size (cc0_transform_7 i) (hinb0_7 i)).WholeWords (EltTy.packing .f32)

variable [Facts₀]

def scatter_S30x48_S2_S10x16_01_n_01_0 : ScatterDims S30x48 S2 S10x16 where
  updateWindowDims := [0, 1]
  insertedWindowDims := []
  scatterDimsToOperandDims := [0, 1]
  indexVectorDim := 0
  wf := scatter_S30x48_S2_S10x16_01_n_01_0_wf
def dot_S4096x10_S10x30_S4096x30_1_0_0_1_n_n : DotDims S4096x10 S10x30 S4096x30 where
  lhsContracting := [1]
  rhsContracting := [0]
  lhsNonContracting := [0]
  rhsNonContracting := [1]
  lhsBatch := []
  rhsBatch := []
  wf := dot_S4096x10_S10x30_S4096x30_1_0_0_1_n_n_wf
def dot_S4096x30_S30x48_S4096x48_1_0_0_1_n_n : DotDims S4096x30 S30x48 S4096x48 where
  lhsContracting := [1]
  rhsContracting := [0]
  lhsNonContracting := [0]
  rhsNonContracting := [1]
  lhsBatch := []
  rhsBatch := []
  wf := dot_S4096x30_S30x48_S4096x48_1_0_0_1_n_n_wf

abbrev win0_0 : Pipeline.Window sig grid0 :=
  Pipeline.Window.ofSpec (Memref.whole main_arg0) S4096x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10x30.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x30.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S30x48.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x48.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16_0) S4096x16.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16_1) S4096x16.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_2) S4096x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S524288x10 : Shape := ⟨2, ![524288, 10]⟩
abbrev S10x10 : Shape := ⟨2, ![10, 10]⟩
abbrev S1x10 : Shape := ⟨2, ![1, 10]⟩
abbrev S10x16 : Shape := ⟨2, ![10, 16]⟩
abbrev S1x16 : Shape := ⟨2, ![1, 16]⟩
abbrev S10x30 : Shape := ⟨2, ![10, 30]⟩
abbrev S_ : Shape := ⟨0, ![]⟩
abbrev S30x48 : Shape := ⟨2, ![30, 48]⟩
abbrev S1 : Shape := ⟨1, ![1]⟩
abbrev S2 : Shape := ⟨1, ![2]⟩
abbrev S1x78 : Shape := ⟨2, ![1, 78]⟩
abbrev S524288x16 : Shape := ⟨2, ![524288, 16]⟩
abbrev S4096x10 : Shape := ⟨2, ![4096, 10]⟩
abbrev S4096x16 : Shape := ⟨2, ![4096, 16]⟩
abbrev S1x30 : Shape := ⟨2, ![1, 30]⟩
abbrev S1x48 : Shape := ⟨2, ![1, 48]⟩
abbrev S4096x30 : Shape := ⟨2, ![4096, 30]⟩
abbrev S4096x48 : Shape := ⟨2, ![4096, 48]⟩
abbrev S4096 : Shape := ⟨1, ![4096]⟩
abbrev S4096x1 : Shape := ⟨2, ![4096, 1]⟩

abbrev nBuf : Space → Nat
  | .hbm => 38
  | .vmem => 11
  | .smem => 0
  | _ => 0

abbrev bufTy : (tb : Table) → Fin (tcTables nBuf tb) → BufTy
  | .hbm, ⟨0, _⟩ => ⟨S524288x10, .f32⟩
  | .hbm, ⟨1, _⟩ => ⟨S10x10, .f32⟩
  | .hbm, ⟨2, _⟩ => ⟨S1x10, .f32⟩
  | .hbm, ⟨3, _⟩ => ⟨S10x16, .f32⟩
  | .hbm, ⟨4, _⟩ => ⟨S1x16, .f32⟩
  | .hbm, ⟨5, _⟩ => ⟨S10x10, .f32⟩
  | .hbm, ⟨6, _⟩ => ⟨S1x10, .f32⟩
  | .hbm, ⟨7, _⟩ => ⟨S10x16, .f32⟩
  | .hbm, ⟨8, _⟩ => ⟨S1x16, .f32⟩
  | .hbm, ⟨9, _⟩ => ⟨S10x10, .f32⟩
  | .hbm, ⟨10, _⟩ => ⟨S1x10, .f32⟩
  | .hbm, ⟨11, _⟩ => ⟨S10x16, .f32⟩
  | .hbm, ⟨12, _⟩ => ⟨S1x16, .f32⟩
  | .hbm, ⟨13, _⟩ => ⟨S10x30, .f32⟩
  | .hbm, ⟨14, _⟩ => ⟨S_, .f32⟩
  | .hbm, ⟨15, _⟩ => ⟨S30x48, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S30x48, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S30x48, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S30x48, .f32⟩
  | .hbm, ⟨34, _⟩ => ⟨S1x78, .f32⟩
  | .hbm, ⟨35, _⟩ => ⟨S524288x16, .f32⟩
  | .hbm, ⟨36, _⟩ => ⟨S524288x16, .f32⟩
  | .hbm, ⟨37, _⟩ => ⟨S524288x16, .f32⟩
  | .local _ .vmem, ⟨0, _⟩ => ⟨S4096x10, .f32⟩
  | .local _ .vmem, ⟨1, _⟩ => ⟨S4096x10, .f32⟩
  | .local _ .vmem, ⟨2, _⟩ => ⟨S10x30, .f32⟩
  | .local _ .vmem, ⟨3, _⟩ => ⟨S1x78, .f32⟩
  | .local _ .vmem, ⟨4, _⟩ => ⟨S30x48, .f32⟩
  | .local _ .vmem, ⟨5, _⟩ => ⟨S4096x16, .f32⟩
  | .local _ .vmem, ⟨6, _⟩ => ⟨S4096x16, .f32⟩
  | .local _ .vmem, ⟨7, _⟩ => ⟨S4096x16, .f32⟩
  | .local _ .vmem, ⟨8, _⟩ => ⟨S4096x16, .f32⟩
  | .local _ .vmem, ⟨9, _⟩ => ⟨S4096x16, .f32⟩
  | .local _ .vmem, ⟨10, _⟩ => ⟨S4096x16, .f32⟩
  | _, _ => ⟨S524288x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_v6 : Ref sig .tc := ⟨.hbm, 23, rfl⟩
abbrev main_c_2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_3 : Ref sig .tc := ⟨.hbm, 28, rfl⟩
abbrev main_v10 : Ref sig .tc := ⟨.hbm, 29, rfl⟩
abbrev main_c_4 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15_0 : Ref sig .tc := ⟨.hbm, 35, rfl⟩
abbrev main_v15_1 : Ref sig .tc := ⟨.hbm, 36, rfl⟩
abbrev main_v15_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x78 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S30x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S10x10_S10x10_S10x10_S10x30_d1 : Shape.Concatenates [S10x10, S10x10, S10x10] S10x30 1
  bcast_S_S30x48 : S_.BroadcastsInDim S30x48 (![] : Fin 0 → Fin S30x48.rank)
  bcast_S_S1 : S_.BroadcastsInDim S1 (![] : Fin 0 → Fin S1.rank)
  concatenates_S1_S1_S2_d0 : Shape.Concatenates [S1, S1] S2 0
  concatenates_S1x10_S1x10_S1x10_S1x16_S1x16_S1x16_S1x78_d1 : Shape.Concatenates [S1x10, S1x10, S1x10, S1x16, S1x16, S1x16] S1x78 1
  inb_S4096x10_S4096x10_0_0 : ∀ a, (![0, 0] : Fin 2 → Nat) a + S4096x10.size a ≤ S4096x10.size a
  h_S4096x10 : 0 < S4096x10.numel
  inb_S1x78_S1x78_0_0 : ∀ a, (![0, 0] : Fin 2 → Nat) a + S1x78.size a ≤ S1x78.size a
  h_S1x78 : 0 < S1x78.numel
  shapeCasts_S1x78_S1x78 : S1x78.ShapeCasts S1x78
  slices_S1x78_o0_0_S1x30 : S1x78.Slices ![0, 0] S1x30
  slices_S1x78_o0_30_S1x48 : S1x78.Slices ![0, 30] S1x48
  inb_S10x30_S10x30_0_0 : ∀ a, (![0, 0] : Fin 2 → Nat) a + S10x30.size a ≤ S10x30.size a
  h_S10x30 : 0 < S10x30.numel
  shapeCasts_S10x30_S10x30 : S10x30.ShapeCasts S10x30
  broadcasts_S1x30_S4096x30 : S1x30.Broadcasts S4096x30
  inb_S30x48_S30x48_0_0 : ∀ a, (![0, 0] : Fin 2 → Nat) a + S30x48.size a ≤ S30x48.size a
  h_S30x48 : 0 < S30x48.numel
  shapeCasts_S30x48_S30x48 : S30x48.ShapeCasts S30x48
  broadcasts_S1x48_S4096x48 : S1x48.Broadcasts S4096x48
  slices_S4096x48_o0_0_S4096x16 : S4096x48.Slices ![0, 0] S4096x16
  inb_S4096x16_S4096x16_0_0 : ∀ a, (![0, 0] : Fin 2 → Nat) a + S4096x16.size a ≤ S4096x16.size a
  h_S4096x16 : 0 < S4096x16.numel
  slices_S4096x48_o0_16_S4096x16 : S4096x48.Slices ![0, 16] S4096x16
  slices_S4096x48_o0_32_S4096x16 : S4096x48.Slices ![0, 32] S4096x16
  reduces_S4096x16_S4096 : S4096x16.Reduces [1] S4096
  shapeCasts_S4096_S4096x1 : S4096.ShapeCasts S4096x1
  broadcasts_S4096x1_S4096x16 : S4096x1.Broadcasts S4096x16
  scatter_S30x48_S2_S10x16_01_n_01_0_wf : ScatterDims.WF S30x48 S2 S10x16 [0, 1] [] [0, 1] 0
  dot_S4096x10_S10x30_S4096x30_1_0_0_1_n_n_wf : DotDims.WF S4096x10 S10x30 S4096x30 [1] [0] [0] [1] [] []
  dot_S4096x30_S30x48_S4096x48_1_0_0_1_n_n_wf : DotDims.WF S4096x30 S30x48 S4096x48 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x10.size a ≤ S524288x10.size a
  hwx0_0 : ∀ i : grid0.Coords, EltTy.bits .f32 = 32 ∨ (Rect.block (s := S524288x10) S4096x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x30.size a ≤ S10x30.size a
  hwx0_1 : ∀ i : grid0.Coords, EltTy.bits .f32 = 32 ∨ (Rect.block (s := S10x30) S10x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x78.size a ≤ S1x78.size a
  hwx0_2 : ∀ i : grid0.Coords, EltTy.bits .f32 = 32 ∨ (Rect.block (s := S1x78) S1x78.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S30x48.size a ≤ S30x48.size a
  hwx0_3 : ∀ i : grid0.Coords, EltTy.bits .f32 = 32 ∨ (Rect.block (s := S30x48) S30x48.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x16.size a ≤ S524288x16.size a
  hwx0_4 : ∀ i : grid0.Coords, EltTy.bits .f32 = 32 ∨ (Rect.block (s := S524288x16) S4096x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x16.size a ≤ S524288x16.size a
  hwx0_5 : ∀ i : grid0.Coords, EltTy.bits .f32 = 32 ∨ (Rect.block (s := S524288x16) S4096x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x16.size a ≤ S524288x16.size a
  hwx0_6 : ∀ i : grid0.Coords, EltTy.bits .f32 = 32 ∨ (Rect.block (s := S524288x16) S4096x16.size (cc0_transform_6 i) (hinb0_6 i)).WholeWords (EltTy.packing .f32)

variable [Facts₀]

def scatter_S30x48_S2_S10x16_01_n_01_0 : ScatterDims S30x48 S2 S10x16 where
  updateWindowDims := [0, 1]
  insertedWindowDims := []
  scatterDimsToOperandDims := [0, 1]
  indexVectorDim := 0
  wf := scatter_S30x48_S2_S10x16_01_n_01_0_wf
def dot_S4096x10_S10x30_S4096x30_1_0_0_1_n_n : DotDims S4096x10 S10x30 S4096x30 where
  lhsContracting := [1]
  rhsContracting := [0]
  lhsNonContracting := [0]
  rhsNonContracting := [1]
  lhsBatch := []
  rhsBatch := []
  wf := dot_S4096x10_S10x30_S4096x30_1_0_0_1_n_n_wf
def dot_S4096x30_S30x48_S4096x48_1_0_0_1_n_n : DotDims S4096x30 S30x48 S4096x48 where
  lhsContracting := [1]
  rhsContracting := [0]
  lhsNonContracting := [0]
  rhsNonContracting := [1]
  lhsBatch := []
  rhsBatch := []
  wf := dot_S4096x30_S30x48_S4096x48_1_0_0_1_n_n_wf

abbrev win0_0 : Pipeline.Window sig grid0 :=
  Pipeline.Window.ofSpec (Memref.whole main_arg0) S4096x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10x30.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x78.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S30x48.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S4096x16.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S4096x16.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_2) S4096x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== Proof.KernelFrame.lean ====
/-
  The frame of the fused three-head network's program, as printed: it runs to the end, faults nowhere, and leaves its thirteen argument arrays as it found
  them; and, beyond that, every array the region writes ends at what the body stored, block by block.

  The program first joins the per-head parameters on the host (the three first-layer weight matrices side by side
  into a 10 × 30 matrix, the three first-layer biases into a 1 × 30 row, the three second-layer weight matrices
  placed on the diagonal of a 30 × 48 matrix of zeros, the three second-layer biases into a 1 × 48 row) and then
  runs one region over 128 blocks of 4096 rows. At a block the body reads the block of rows and the four joined
  parameter arrays whole, and stores three 4096 × 16 blocks, each a pure function (the skeleton's second, third
  and fourth payloads) of what it read. It also reads each output buffer once before storing into it; the value
  read is never used, so the buffers' earlier contents do not matter.
-/
import proofs.«105853_g2000302393245824_pallasbulk_1178_2_alg».proof.Proof.Gen.Kernel.Launch
import proofs.«105853_g2000302393245824_pallasbulk_1178_2_alg».proof.Proof.Gen.Kernel.Skeleton
import proofs.«105853_g2000302393245824_pallasbulk_1178_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- A core's buffers when the region is entered: the launch memory after the host operations that join the
    parameters. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: each writes its own result, and no result is an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 1: each writes its own result, and no result is an argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 2: each writes its own result, and no result is an argument. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 3: each writes its own result, and no result is an argument. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 4: each writes its own result, and no result is an argument. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 5: each writes its own result, and no result is an argument. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 6: each writes its own result, and no result is an argument. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 7: each writes its own result, and no result is an argument. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 8: each writes its own result, and no result is an argument. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 9: each writes its own result, and no result is an argument. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 10: each writes its own result, and no result is an argument. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 11: each writes its own result, and no result is an argument. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 12: each writes its own result, and no result is an argument. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or
    not (unfetched, its block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or
    not (unfetched, its block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or
    not (unfetched, its block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetches it or
    not (unfetched, its block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetches it or
    not (unfetched, its block index has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- For any proof data whose arrays are the region-entry contents, a run that ends with every staged array at what
    the proof data computes and every other buffer as the region found it leaves the thirteen arguments as
    launched: the rows' array is window 0's, an input; the twelve parameter arrays are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## The body's accesses: every load and store is of a whole buffer -/

abbrev r_S4096x10 : Rect S4096x10 := Rect.unit (s := S4096x10) ![0, 0] S4096x10.size inb_S4096x10_S4096x10_0_0
abbrev r_S10x30 : Rect S10x30 := Rect.unit (s := S10x30) ![0, 0] S10x30.size inb_S10x30_S10x30_0_0
abbrev r_S1x30 : Rect S1x30 := Rect.unit (s := S1x30) ![0, 0] S1x30.size inb_S1x30_S1x30_0_0
abbrev r_S30x48 : Rect S30x48 := Rect.unit (s := S30x48) ![0, 0] S30x48.size inb_S30x48_S30x48_0_0
abbrev r_S1x48 : Rect S1x48 := Rect.unit (s := S1x48) ![0, 0] S1x48.size inb_S1x48_S1x48_0_0
abbrev r_S4096x16 : Rect S4096x16 := Rect.unit (s := S4096x16) ![0, 0] S4096x16.size inb_S4096x16_S4096x16_0_0

/-! ## What the body leaves in each output window's buffer -/

/-- Window 5's staging buffer after the body: its one store, of payload 2 of the input blocks. -/
def out0_5 (x0 : Vec F S4096x10 .f32) (x1 : Vec F S10x30 .f32) (x2 : Vec F S1x30 .f32) (x3 : Vec F S30x48 .f32) (x4 : Vec F S1x48 .f32) : Vec F S4096x16 .f32 :=
  View.canon [⟨r_S4096x16, k0_pay2 (View.ld x0 r_S4096x10) (View.ld x1 r_S10x30) (View.ld x2 r_S1x30) (View.ld x3 r_S30x48) (View.ld x4 r_S1x48)⟩]
/-- Window 6's staging buffer after the body: its one store, of payload 3 of the input blocks. -/
def out0_6 (x0 : Vec F S4096x10 .f32) (x1 : Vec F S10x30 .f32) (x2 : Vec F S1x30 .f32) (x3 : Vec F S30x48 .f32) (x4 : Vec F S1x48 .f32) : Vec F S4096x16 .f32 :=
  View.canon [⟨r_S4096x16, k0_pay3 (View.ld x0 r_S4096x10) (View.ld x1 r_S10x30) (View.ld x2 r_S1x30) (View.ld x3 r_S30x48) (View.ld x4 r_S1x48)⟩]
/-- Window 7's staging buffer after the body: its one store, of payload 4 of the input blocks. -/
def out0_7 (x0 : Vec F S4096x10 .f32) (x1 : Vec F S10x30 .f32) (x2 : Vec F S1x30 .f32) (x3 : Vec F S30x48 .f32) (x4 : Vec F S1x48 .f32) : Vec F S4096x16 .f32 :=
  View.canon [⟨r_S4096x16, k0_pay4 (View.ld x0 r_S4096x10) (View.ld x1 r_S10x30) (View.ld x2 r_S1x30) (View.ld x3 r_S30x48) (View.ld x4 r_S1x48)⟩]

/-- One store of the whole buffer covers it. -/
theorem cover_whole (p0 : Vec F S4096x16 .f32) (y : S4096x16.Idx) :
    ∃ pc ∈ ([⟨r_S4096x16, p0⟩] : List (View.Piece (Elt F) S4096x16 .f32)), y ∈ pc.1.set :=
  View.cover_of_tiled [⟨r_S4096x16, p0⟩] S4096x16.size (by rfl) y

/-! ## The body's triple -/

set_option maxHeartbeats 1000000 in
/-- The body on whole staging buffers, the inputs' at read contents and the outputs' at anything, runs to the
    continuation holding the inputs' as they were and each output's at its one store over the inputs'. -/
theorem sound_kernel (c : Dev nD) (E : Set ℕ) (i : grid0.Coords) (arg1 : Memref sig .tc .vmem S4096x10 .f32) (harg1 : arg1.IsWhole) (arg2 : Memref sig .tc .vmem S10x30 .f32) (harg2 : arg2.IsWhole) (arg3 : Memref sig .tc .vmem S1x30 .f32) (harg3 : arg3.IsWhole) (arg4 : Memref sig .tc .vmem S30x48 .f32) (harg4 : arg4.IsWhole) (arg5 : Memref sig .tc .vmem S1x48 .f32) (harg5 : arg5.IsWhole) (arg6 : Memref sig .tc .vmem S4096x16 .f32) (harg6 : arg6.IsWhole) (arg7 : Memref sig .tc .vmem S4096x16 .f32) (harg7 : arg7.IsWhole) (arg8 : Memref sig .tc .vmem S4096x16 .f32) (harg8 : arg8.IsWhole)
    (x0 : Vec F S4096x10 .f32) (x1 : Vec F S10x30 .f32) (x2 : Vec F S1x30 .f32) (x3 : Vec F S30x48 .f32) (x4 : Vec F S1x48 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4)) -∗ K ⟨⟩))
      ⊢ wp frame (wpE (defs₀ (F := F)) Variants.none c none) E (cc0__mdn_kernel i arg1 harg1 arg2 harg2 arg3 harg3 arg4 harg4 arg5 harg5 arg6 harg6 arg7 harg7 arg8 harg8) K := by
  simp only [cc0__mdn_kernel_eq_skeleton]; unfold cc0__mdn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_whole _)
  isplitl [H6]
  · iexists _; isplitr
    swap; · iexact H6
    ipureintro
    exact View.read_writes_eq_canon _ _ _ (cover_whole _)
  iexists _; isplitr
  swap; · iexact H7
  ipureintro
  exact View.read_writes_eq_canon _ _ _ (cover_whole _)

/-! ## The pipeline's proof data -/

/-- The proof data of the one pipeline on core `c`: the arrays as the region finds them; after the body at point
    `t` each input's buffer at its block and each output's at its store over the input blocks; nothing else of
    the core is touched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
    | ⟨7, _⟩ => out0_7 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]
theorem after0_7 (c : Dev nD) (t : Fin cfg0.N) : (dats m 0 c).after 7 t = out0_7 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the rest of the
    core passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final
    state has every array the region stages at what the proof data computes and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program terminates without a fault and its thirteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Fr

end
-- ==== Proof.KernelIdealFrame.lean ====
/-
  The frame of the fused three-head network's program, read over the extended reals: it runs to the end, faults nowhere, and leaves its thirteen argument arrays as it found
  them; and, beyond that, every array the region writes ends at what the body stored, block by block.

  The program first joins the per-head parameters on the host (the three first-layer weight matrices side by side
  into a 10 × 30 matrix, the three first-layer biases into a 1 × 30 row, the three second-layer weight matrices
  placed on the diagonal of a 30 × 48 matrix of zeros, the three second-layer biases into a 1 × 48 row) and then
  runs one region over 128 blocks of 4096 rows. At a block the body reads the block of rows and the four joined
  parameter arrays whole, and stores three 4096 × 16 blocks, each a pure function (the skeleton's second, third
  and fourth payloads) of what it read. It also reads each output buffer once before storing into it; the value
  read is never used, so the buffers' earlier contents do not matter.
-/
import proofs.«105853_g2000302393245824_pallasbulk_1178_2_alg».proof.Proof.Gen.KernelIdeal.Launch
import proofs.«105853_g2000302393245824_pallasbulk_1178_2_alg».proof.Proof.Gen.KernelIdeal.Skeleton
import proofs.«105853_g2000302393245824_pallasbulk_1178_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- A core's buffers when the region is entered: the launch memory after the host operations that join the
    parameters. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: each writes its own result, and no result is an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 1: each writes its own result, and no result is an argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 2: each writes its own result, and no result is an argument. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 3: each writes its own result, and no result is an argument. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 4: each writes its own result, and no result is an argument. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 5: each writes its own result, and no result is an argument. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 6: each writes its own result, and no result is an argument. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 7: each writes its own result, and no result is an argument. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 8: each writes its own result, and no result is an argument. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 9: each writes its own result, and no result is an argument. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 10: each writes its own result, and no result is an argument. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 11: each writes its own result, and no result is an argument. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 12: each writes its own result, and no result is an argument. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or
    not (unfetched, its block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or
    not (unfetched, its block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or
    not (unfetched, its block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetches it or
    not (unfetched, its block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetches it or
    not (unfetched, its block index has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- For any proof data whose arrays are the region-entry contents, a run that ends with every staged array at what
    the proof data computes and every other buffer as the region found it leaves the thirteen arguments as
    launched: the rows' array is window 0's, an input; the twelve parameter arrays are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## The body's accesses: every load and store is of a whole buffer -/

abbrev r_S4096x10 : Rect S4096x10 := Rect.unit (s := S4096x10) ![0, 0] S4096x10.size inb_S4096x10_S4096x10_0_0
abbrev r_S10x30 : Rect S10x30 := Rect.unit (s := S10x30) ![0, 0] S10x30.size inb_S10x30_S10x30_0_0
abbrev r_S1x30 : Rect S1x30 := Rect.unit (s := S1x30) ![0, 0] S1x30.size inb_S1x30_S1x30_0_0
abbrev r_S30x48 : Rect S30x48 := Rect.unit (s := S30x48) ![0, 0] S30x48.size inb_S30x48_S30x48_0_0
abbrev r_S1x48 : Rect S1x48 := Rect.unit (s := S1x48) ![0, 0] S1x48.size inb_S1x48_S1x48_0_0
abbrev r_S4096x16 : Rect S4096x16 := Rect.unit (s := S4096x16) ![0, 0] S4096x16.size inb_S4096x16_S4096x16_0_0

/-! ## What the body leaves in each output window's buffer -/

/-- Window 5's staging buffer after the body: its one store, of payload 2 of the input blocks. -/
def out0_5 (x0 : Vec F S4096x10 .f32) (x1 : Vec F S10x30 .f32) (x2 : Vec F S1x30 .f32) (x3 : Vec F S30x48 .f32) (x4 : Vec F S1x48 .f32) : Vec F S4096x16 .f32 :=
  View.canon [⟨r_S4096x16, k0_pay2 (View.ld x0 r_S4096x10) (View.ld x1 r_S10x30) (View.ld x2 r_S1x30) (View.ld x3 r_S30x48) (View.ld x4 r_S1x48)⟩]
/-- Window 6's staging buffer after the body: its one store, of payload 3 of the input blocks. -/
def out0_6 (x0 : Vec F S4096x10 .f32) (x1 : Vec F S10x30 .f32) (x2 : Vec F S1x30 .f32) (x3 : Vec F S30x48 .f32) (x4 : Vec F S1x48 .f32) : Vec F S4096x16 .f32 :=
  View.canon [⟨r_S4096x16, k0_pay3 (View.ld x0 r_S4096x10) (View.ld x1 r_S10x30) (View.ld x2 r_S1x30) (View.ld x3 r_S30x48) (View.ld x4 r_S1x48)⟩]
/-- Window 7's staging buffer after the body: its one store, of payload 4 of the input blocks. -/
def out0_7 (x0 : Vec F S4096x10 .f32) (x1 : Vec F S10x30 .f32) (x2 : Vec F S1x30 .f32) (x3 : Vec F S30x48 .f32) (x4 : Vec F S1x48 .f32) : Vec F S4096x16 .f32 :=
  View.canon [⟨r_S4096x16, k0_pay4 (View.ld x0 r_S4096x10) (View.ld x1 r_S10x30) (View.ld x2 r_S1x30) (View.ld x3 r_S30x48) (View.ld x4 r_S1x48)⟩]

/-- One store of the whole buffer covers it. -/
theorem cover_whole (p0 : Vec F S4096x16 .f32) (y : S4096x16.Idx) :
    ∃ pc ∈ ([⟨r_S4096x16, p0⟩] : List (View.Piece (Elt F) S4096x16 .f32)), y ∈ pc.1.set :=
  View.cover_of_tiled [⟨r_S4096x16, p0⟩] S4096x16.size (by rfl) y

/-! ## The body's triple -/

set_option maxHeartbeats 1000000 in
/-- The body on whole staging buffers, the inputs' at read contents and the outputs' at anything, runs to the
    continuation holding the inputs' as they were and each output's at its one store over the inputs'. -/
theorem sound_kernel (c : Dev nD) (E : Set ℕ) (i : grid0.Coords) (arg1 : Memref sig .tc .vmem S4096x10 .f32) (harg1 : arg1.IsWhole) (arg2 : Memref sig .tc .vmem S10x30 .f32) (harg2 : arg2.IsWhole) (arg3 : Memref sig .tc .vmem S1x30 .f32) (harg3 : arg3.IsWhole) (arg4 : Memref sig .tc .vmem S30x48 .f32) (harg4 : arg4.IsWhole) (arg5 : Memref sig .tc .vmem S1x48 .f32) (harg5 : arg5.IsWhole) (arg6 : Memref sig .tc .vmem S4096x16 .f32) (harg6 : arg6.IsWhole) (arg7 : Memref sig .tc .vmem S4096x16 .f32) (harg7 : arg7.IsWhole) (arg8 : Memref sig .tc .vmem S4096x16 .f32) (harg8 : arg8.IsWhole)
    (x0 : Vec F S4096x10 .f32) (x1 : Vec F S10x30 .f32) (x2 : Vec F S1x30 .f32) (x3 : Vec F S30x48 .f32) (x4 : Vec F S1x48 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4)) -∗ K ⟨⟩))
      ⊢ wp frame (wpE (defs₀ (F := F)) Variants.none c none) E (cc0__mdn_kernel i arg1 harg1 arg2 harg2 arg3 harg3 arg4 harg4 arg5 harg5 arg6 harg6 arg7 harg7 arg8 harg8) K := by
  simp only [cc0__mdn_kernel_eq_skeleton]; unfold cc0__mdn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_whole _)
  isplitl [H6]
  · iexists _; isplitr
    swap; · iexact H6
    ipureintro
    exact View.read_writes_eq_canon _ _ _ (cover_whole _)
  iexists _; isplitr
  swap; · iexact H7
  ipureintro
  exact View.read_writes_eq_canon _ _ _ (cover_whole _)

/-! ## The pipeline's proof data -/

/-- The proof data of the one pipeline on core `c`: the arrays as the region finds them; after the body at point
    `t` each input's buffer at its block and each output's at its store over the input blocks; nothing else of
    the core is touched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
    | ⟨7, _⟩ => out0_7 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]
theorem after0_7 (c : Dev nD) (t : Fin cfg0.N) : (dats m 0 c).after 7 t = out0_7 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the rest of the
    core passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final
    state has every array the region stages at what the proof data computes and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program terminates without a fault and its thirteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Fr

end
-- ==== Proof.Rows.lean ====
/-
  An array of 524288 rows cut into 128 blocks of 4096 consecutive rows, and a 524288 × 16 array assembled block by
  block from a function of a 4096 × 10 block of rows: entry (r, j) of the result is the function of the block of
  rows that contains row r, read at (r mod 4096, j). Both programs of this certificate produce their three results
  in this way, which is all that is needed of the grid.
-/
import Idealize.ShloMosaic.Lib.ValueIdx

noncomputable section

namespace Cert.Rows

open Idealize.ShloMosaic Idealize.ShloMosaic.ValueIdx

/-- The array of rows, a block of rows, the array of results, a block of results. -/
abbrev SX : Shape := ⟨2, ![524288, 10]⟩
abbrev SXb : Shape := ⟨2, ![4096, 10]⟩
abbrev SO : Shape := ⟨2, ![524288, 16]⟩
abbrev SOb : Shape := ⟨2, ![4096, 16]⟩

/-- Block `q` of the rows: rows `4096 q … 4096 q + 4095`. -/
def rowsBlock {α : Type} (x : SX.Idx → α) (q : Fin 128) : SXb.Idx → α :=
  fun y => x (ix2 (⟨q.val * 4096 + (y 0).val, by have := idx2_lt0 y; have := q.isLt; omega⟩ : Fin 524288) (y 1 : Fin 10))

/-- The block a result index falls in, -/
def blockOf (i : SO.Idx) : Fin 128 := ⟨(i 0).val / 4096, by have := idx2_lt0 i; omega⟩

/-- and its place inside that block. -/
def inBlock (i : SO.Idx) : SOb.Idx := ix2 (⟨(i 0).val % 4096, Nat.mod_lt _ (by decide)⟩ : Fin 4096) (i 1 : Fin 16)

/-- The result array assembled from a per-block function `f`. -/
def ofBlocks {α β : Type} (f : (SXb.Idx → α) → SOb.Idx → β) (x : SX.Idx → α) : SO.Idx → β :=
  fun i => f (rowsBlock x (blockOf i)) (inBlock i)

/-- At row `4096 q + y₀` and column `y₁` the assembled array is `f` of block `q` at `y`. -/
theorem ofBlocks_at {α β : Type} (f : (SXb.Idx → α) → SOb.Idx → β) (x : SX.Idx → α) (q : Fin 128) (y : SOb.Idx) (i : SO.Idx)
    (h0 : (i 0).val = q.val * 4096 + (y 0).val) (h1 : (i 1).val = (y 1).val) :
    ofBlocks f x i = f (rowsBlock x q) y := by
  have hy := idx2_lt0 y
  have hq : blockOf i = q := Fin.ext (by show (i 0).val / 4096 = q.val; omega)
  have hi : inBlock i = y := by
    rw [eq_ix2 y]
    unfold inBlock
    congr 1
    · exact Fin.ext (by show (i 0).val % 4096 = (y 0).val; omega)
    · exact Fin.ext h1
  unfold ofBlocks
  rw [hq, hi]

/-- Two assembled arrays agree when their per-block functions agree on every block. -/
theorem ofBlocks_congr {α β : Type} (f g : (SXb.Idx → α) → SOb.Idx → β) (x : SX.Idx → α)
    (h : ∀ q : Fin 128, f (rowsBlock x q) = g (rowsBlock x q)) : ofBlocks f x = ofBlocks g x :=
  funext fun i => congrFun (h (blockOf i)) (inBlock i)

end Cert.Rows

end
-- ==== Proof.KernelIdealValue.lean ====
/-
  The three results of the fused network's program as whole arrays. At grid point t the body stores, into block t
  (rows 4096 t … 4096 t + 4095) of each result array, a function of block t of the rows and of the four joined
  parameter arrays read whole. The 128 blocks tile each result array, so each array ends as the function assembled
  block by block over the rows: entry (r, j) is the body's payload of the block of rows containing r, read at
  (r mod 4096, j).
-/
import proofs.«105853_g2000302393245824_pallasbulk_1178_2_alg».proof.Proof.KernelIdealFrame
import proofs.«105853_g2000302393245824_pallasbulk_1178_2_alg».proof.Proof.Rows
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## The results as functions of the rows and the joined parameters -/

/-- The first result as an array assembled block by block from the body's first stored payload. -/
def G5 (x : FVec F S524288x10 .f32) (w1 : FVec F S10x30 .f32) (b1 : FVec F S1x30 .f32) (w2 : FVec F S30x48 .f32) (b2 : FVec F S1x48 .f32) : FVec F S524288x16 .f32 :=
  Cert.Rows.ofBlocks (fun xb => k0_pay2 xb w1 b1 w2 b2) x
/-- The second result, from the second stored payload. -/
def G6 (x : FVec F S524288x10 .f32) (w1 : FVec F S10x30 .f32) (b1 : FVec F S1x30 .f32) (w2 : FVec F S30x48 .f32) (b2 : FVec F S1x48 .f32) : FVec F S524288x16 .f32 :=
  Cert.Rows.ofBlocks (fun xb => k0_pay3 xb w1 b1 w2 b2) x
/-- The third result, from the third stored payload. -/
def G7 (x : FVec F S524288x10 .f32) (w1 : FVec F S10x30 .f32) (b1 : FVec F S1x30 .f32) (w2 : FVec F S30x48 .f32) (b2 : FVec F S1x48 .f32) : FVec F S524288x16 .f32 :=
  Cert.Rows.ofBlocks (fun xb => k0_pay4 xb w1 b1 w2 b2) x

/-! ## Where each window's block sits in its array -/

theorem zero_offsets : (![0, 0] : Fin 2 → Nat) = fun _ => 0 := funext fun a => by fin_cases a <;> rfl

/-- A grid point as a block number below 128. -/
def blockNo (t : Fin cfg0.N) : Fin 128 := ⟨t.val, t.isLt.trans_eq N_0⟩

/-- The printed index maps, decided over the grid: the rows' window and the three result windows are at block
    (t, 0) at point t; the four parameter windows stay at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The rows' window at point t holds block t of the rows. -/
theorem rows_block (c : Dev nD) (t : Fin cfg0.N) :
    iblk m c 0 t = Cert.Rows.rowsBlock (V m c main_arg0) (blockNo t) := by
  obtain ⟨e0, e1, -⟩ := index_facts t
  funext y
  show V m c main_arg0 (((cfg0.win 0).blk t).view.emb y) = V m c main_arg0 _
  refine congrArg (V m c main_arg0) ?_
  funext a; apply Fin.ext
  match a with
  | ⟨0, _⟩ => show win0_0.index t (0 : Fin 2) * 4096 + 1 * (y 0).val = t.val * 4096 + (y 0).val; omega
  | ⟨1, _⟩ => show win0_0.index t (1 : Fin 2) * 10 + 1 * (y 1).val = (y 1).val; omega

/-- The first-layer weights' window holds its whole array at every point. -/
theorem w1_block (c : Dev nD) (t : Fin cfg0.N) : iblk m c 1 t = V m c main_v0 := by
  obtain ⟨-, -, e0, e1, -⟩ := index_facts t
  funext y
  show V m c main_v0 (((cfg0.win 1).blk t).view.emb y) = V m c main_v0 y
  refine congrArg (V m c main_v0) ?_
  funext a; apply Fin.ext
  match a with
  | ⟨0, _⟩ => show win0_1.index t (0 : Fin 2) * 10 + 1 * (y 0).val = (y 0).val; omega
  | ⟨1, _⟩ => show win0_1.index t (1 : Fin 2) * 30 + 1 * (y 1).val = (y 1).val; omega

/-- The first-layer biases' window holds its whole array at every point. -/
theorem b1_block (c : Dev nD) (t : Fin cfg0.N) : iblk m c 2 t = V m c main_v1 := by
  obtain ⟨-, -, -, -, e0, e1, -⟩ := index_facts t
  funext y
  show V m c main_v1 (((cfg0.win 2).blk t).view.emb y) = V m c main_v1 y
  refine congrArg (V m c main_v1) ?_
  funext a; apply Fin.ext
  match a with
  | ⟨0, _⟩ => show win0_2.index t (0 : Fin 2) * 1 + 1 * (y 0).val = (y 0).val; omega
  | ⟨1, _⟩ => show win0_2.index t (1 : Fin 2) * 30 + 1 * (y 1).val = (y 1).val; omega

/-- The second-layer weights' window holds its whole array at every point. -/
theorem w2_block (c : Dev nD) (t : Fin cfg0.N) : iblk m c 3 t = V m c main_v14 := by
  obtain ⟨-, -, -, -, -, -, e0, e1, -⟩ := index_facts t
  funext y
  show V m c main_v14 (((cfg0.win 3).blk t).view.emb y) = V m c main_v14 y
  refine congrArg (V m c main_v14) ?_
  funext a; apply Fin.ext
  match a with
  | ⟨0, _⟩ => show win0_3.index t (0 : Fin 2) * 30 + 1 * (y 0).val = (y 0).val; omega
  | ⟨1, _⟩ => show win0_3.index t (1 : Fin 2) * 48 + 1 * (y 1).val = (y 1).val; omega

/-- The second-layer biases' window holds its whole array at every point. -/
theorem b2_block (c : Dev nD) (t : Fin cfg0.N) : iblk m c 4 t = V m c main_v15 := by
  obtain ⟨-, -, -, -, -, -, -, -, e0, e1, -⟩ := index_facts t
  funext y
  show V m c main_v15 (((cfg0.win 4).blk t).view.emb y) = V m c main_v15 y
  refine congrArg (V m c main_v15) ?_
  funext a; apply Fin.ext
  match a with
  | ⟨0, _⟩ => show win0_4.index t (0 : Fin 2) * 1 + 1 * (y 0).val = (y 0).val; omega
  | ⟨1, _⟩ => show win0_4.index t (1 : Fin 2) * 48 + 1 * (y 1).val = (y 1).val; omega

/-! ## Result window 5 -/

/-- After the run, the result array of window 5 is what the write-backs leave. -/
theorem post5 (r : PUnit × MemSt nD τ sig (Elt F)) (h : Pipeline.FramePost cfgs (dats m) 0 (V m) r) (c : Dev nD) :
    r.2.mem ((c : Thread nD τ).loc main_v16_0) = (dats m 0 c).arrAt 5 cfg0.N :=
  (h c).1 5

/-- What point t writes back through window 5 is block t of the assembled array: the stored payload is a function
    of block t of the rows and the whole parameter arrays, and entry y of the block sits at row 4096 t + y₀, column
    y₁ of the array. -/
theorem flushed5_eq (c : Dev nD) (t : Fin cfg0.N) :
    (dats m 0 c).flushed 5 t = ((cfg0.win 5).blk t).view.read (Elt F) (G5 (V m c main_arg0) (V m c main_v0) (V m c main_v1) (V m c main_v14) (V m c main_v15)) := by
  show (cfg0.win 5).cut (grid0.coords t) ((dats m 0 c).after 5 t) = _
  rw [after0_5]
  unfold out0_5
  rw [View.canon_unit_zero zero_offsets]
  simp only [View.ld_unit_zero (S := S4096x10) zero_offsets, View.ld_unit_zero (S := S10x30) zero_offsets, View.ld_unit_zero (S := S1x30) zero_offsets, View.ld_unit_zero (S := S30x48) zero_offsets, View.ld_unit_zero (S := S1x48) zero_offsets]
  rw [rows_block, w1_block, b1_block, w2_block, b2_block]
  obtain ⟨-, -, -, -, -, -, -, -, -, -, e0, e1, -⟩ := index_facts t
  funext j
  have h0 : ((((cfg0.win 5).blk t).view.emb j) 0).val = (blockNo t).val * 4096 + (((cfg0.win 5).xinj (grid0.coords t) j) 0).val := by
    show win0_5.index t (0 : Fin 2) * 4096 + 1 * (j 0).val = t.val * 4096 + (j 0).val
    omega
  have h1 : ((((cfg0.win 5).blk t).view.emb j) 1).val = (((cfg0.win 5).xinj (grid0.coords t) j) 1).val := by
    show win0_5.index t (1 : Fin 2) * 16 + 1 * (j 1).val = (j 1).val
    omega
  exact (Cert.Rows.ofBlocks_at (fun xb => k0_pay2 xb (V m c main_v0) (V m c main_v1) (V m c main_v14) (V m c main_v15)) (V m c main_arg0) (blockNo t)
    ((cfg0.win 5).xinj (grid0.coords t) j) (((cfg0.win 5).blk t).view.emb j) h0 h1).symm

/-- An index of the array is in point t's block iff each coordinate is in the block's range on its axis. -/
theorem mem_blk5 (t : Fin cfg0.N) (i : S524288x16.Idx) :
    i ∈ ((cfg0.win 5).blk t).view.set ↔ ∀ a : Fin 2, win0_5.index t a * S4096x16.size a ≤ (i a).val ∧ (i a).val < win0_5.index t a * S4096x16.size a + S4096x16.size a := by
  show i ∈ ((View.whole main_v16_0).slice (win0_5.rect t)).set ↔ _
  rw [View.set_slice_whole, Rect.mem_set_unit]
  exact Iff.rfl

/-- Every index of the array is in some point's block: row r is in the block of point r / 4096. -/
theorem cover5 (i : S524288x16.Idx) :
    ∃ t : Fin cfg0.N, (cfg0.win 5).flush t = true ∧ i ∈ ((cfg0.win 5).blk t).view.set := by
  have hi0 : (i 0).val < 524288 := (i 0).isLt
  have hi1 : (i 1).val < 16 := (i 1).isLt
  have hN : cfg0.N = 128 := N_0
  refine ⟨⟨(i 0).val / 4096, by rw [hN]; omega⟩, flush0_5 _, ?_⟩
  rw [mem_blk5]
  obtain ⟨-, -, -, -, -, -, -, -, -, -, e0, e1, -⟩ := index_facts ⟨(i 0).val / 4096, by rw [hN]; omega⟩
  intro a
  match a with
  | ⟨0, _⟩ => show win0_5.index _ (0 : Fin 2) * 4096 ≤ (i 0).val ∧ (i 0).val < win0_5.index _ (0 : Fin 2) * 4096 + 4096; rw [e0]; show (i 0).val / 4096 * 4096 ≤ (i 0).val ∧ (i 0).val < (i 0).val / 4096 * 4096 + 4096; omega
  | ⟨1, _⟩ => show win0_5.index _ (1 : Fin 2) * 16 ≤ (i 1).val ∧ (i 1).val < win0_5.index _ (1 : Fin 2) * 16 + 16; rw [e1]; omega

/-- The result array of window 5 after the run is the assembled array. -/
theorem final5 (c : Dev nD) : (dats m 0 c).arrAt 5 cfg0.N = G5 (V m c main_arg0) (V m c main_v0) (V m c main_v1) (V m c main_v14) (V m c main_v15) :=
  (dats m 0 c).arrAt_eq_of_cover 5 _ (fun t _ => flushed5_eq m c t) cover5

/-! ## Result window 6 -/

/-- After the run, the result array of window 6 is what the write-backs leave. -/
theorem post6 (r : PUnit × MemSt nD τ sig (Elt F)) (h : Pipeline.FramePost cfgs (dats m) 0 (V m) r) (c : Dev nD) :
    r.2.mem ((c : Thread nD τ).loc main_v16_1) = (dats m 0 c).arrAt 6 cfg0.N :=
  (h c).1 6

/-- What point t writes back through window 6 is block t of the assembled array: the stored payload is a function
    of block t of the rows and the whole parameter arrays, and entry y of the block sits at row 4096 t + y₀, column
    y₁ of the array. -/
theorem flushed6_eq (c : Dev nD) (t : Fin cfg0.N) :
    (dats m 0 c).flushed 6 t = ((cfg0.win 6).blk t).view.read (Elt F) (G6 (V m c main_arg0) (V m c main_v0) (V m c main_v1) (V m c main_v14) (V m c main_v15)) := by
  show (cfg0.win 6).cut (grid0.coords t) ((dats m 0 c).after 6 t) = _
  rw [after0_6]
  unfold out0_6
  rw [View.canon_unit_zero zero_offsets]
  simp only [View.ld_unit_zero (S := S4096x10) zero_offsets, View.ld_unit_zero (S := S10x30) zero_offsets, View.ld_unit_zero (S := S1x30) zero_offsets, View.ld_unit_zero (S := S30x48) zero_offsets, View.ld_unit_zero (S := S1x48) zero_offsets]
  rw [rows_block, w1_block, b1_block, w2_block, b2_block]
  obtain ⟨-, -, -, -, -, -, -, -, -, -, -, -, e0, e1, -⟩ := index_facts t
  funext j
  have h0 : ((((cfg0.win 6).blk t).view.emb j) 0).val = (blockNo t).val * 4096 + (((cfg0.win 6).xinj (grid0.coords t) j) 0).val := by
    show win0_6.index t (0 : Fin 2) * 4096 + 1 * (j 0).val = t.val * 4096 + (j 0).val
    omega
  have h1 : ((((cfg0.win 6).blk t).view.emb j) 1).val = (((cfg0.win 6).xinj (grid0.coords t) j) 1).val := by
    show win0_6.index t (1 : Fin 2) * 16 + 1 * (j 1).val = (j 1).val
    omega
  exact (Cert.Rows.ofBlocks_at (fun xb => k0_pay3 xb (V m c main_v0) (V m c main_v1) (V m c main_v14) (V m c main_v15)) (V m c main_arg0) (blockNo t)
    ((cfg0.win 6).xinj (grid0.coords t) j) (((cfg0.win 6).blk t).view.emb j) h0 h1).symm

/-- An index of the array is in point t's block iff each coordinate is in the block's range on its axis. -/
theorem mem_blk6 (t : Fin cfg0.N) (i : S524288x16.Idx) :
    i ∈ ((cfg0.win 6).blk t).view.set ↔ ∀ a : Fin 2, win0_6.index t a * S4096x16.size a ≤ (i a).val ∧ (i a).val < win0_6.index t a * S4096x16.size a + S4096x16.size a := by
  show i ∈ ((View.whole main_v16_1).slice (win0_6.rect t)).set ↔ _
  rw [View.set_slice_whole, Rect.mem_set_unit]
  exact Iff.rfl

/-- Every index of the array is in some point's block: row r is in the block of point r / 4096. -/
theorem cover6 (i : S524288x16.Idx) :
    ∃ t : Fin cfg0.N, (cfg0.win 6).flush t = true ∧ i ∈ ((cfg0.win 6).blk t).view.set := by
  have hi0 : (i 0).val < 524288 := (i 0).isLt
  have hi1 : (i 1).val < 16 := (i 1).isLt
  have hN : cfg0.N = 128 := N_0
  refine ⟨⟨(i 0).val / 4096, by rw [hN]; omega⟩, flush0_6 _, ?_⟩
  rw [mem_blk6]
  obtain ⟨-, -, -, -, -, -, -, -, -, -, -, -, e0, e1, -⟩ := index_facts ⟨(i 0).val / 4096, by rw [hN]; omega⟩
  intro a
  match a with
  | ⟨0, _⟩ => show win0_6.index _ (0 : Fin 2) * 4096 ≤ (i 0).val ∧ (i 0).val < win0_6.index _ (0 : Fin 2) * 4096 + 4096; rw [e0]; show (i 0).val / 4096 * 4096 ≤ (i 0).val ∧ (i 0).val < (i 0).val / 4096 * 4096 + 4096; omega
  | ⟨1, _⟩ => show win0_6.index _ (1 : Fin 2) * 16 ≤ (i 1).val ∧ (i 1).val < win0_6.index _ (1 : Fin 2) * 16 + 16; rw [e1]; omega

/-- The result array of window 6 after the run is the assembled array. -/
theorem final6 (c : Dev nD) : (dats m 0 c).arrAt 6 cfg0.N = G6 (V m c main_arg0) (V m c main_v0) (V m c main_v1) (V m c main_v14) (V m c main_v15) :=
  (dats m 0 c).arrAt_eq_of_cover 6 _ (fun t _ => flushed6_eq m c t) cover6

/-! ## Result window 7 -/

/-- After the run, the result array of window 7 is what the write-backs leave. -/
theorem post7 (r : PUnit × MemSt nD τ sig (Elt F)) (h : Pipeline.FramePost cfgs (dats m) 0 (V m) r) (c : Dev nD) :
    r.2.mem ((c : Thread nD τ).loc main_v16_2) = (dats m 0 c).arrAt 7 cfg0.N :=
  (h c).1 7

/-- What point t writes back through window 7 is block t of the assembled array: the stored payload is a function
    of block t of the rows and the whole parameter arrays, and entry y of the block sits at row 4096 t + y₀, column
    y₁ of the array. -/
theorem flushed7_eq (c : Dev nD) (t : Fin cfg0.N) :
    (dats m 0 c).flushed 7 t = ((cfg0.win 7).blk t).view.read (Elt F) (G7 (V m c main_arg0) (V m c main_v0) (V m c main_v1) (V m c main_v14) (V m c main_v15)) := by
  show (cfg0.win 7).cut (grid0.coords t) ((dats m 0 c).after 7 t) = _
  rw [after0_7]
  unfold out0_7
  rw [View.canon_unit_zero zero_offsets]
  simp only [View.ld_unit_zero (S := S4096x10) zero_offsets, View.ld_unit_zero (S := S10x30) zero_offsets, View.ld_unit_zero (S := S1x30) zero_offsets, View.ld_unit_zero (S := S30x48) zero_offsets, View.ld_unit_zero (S := S1x48) zero_offsets]
  rw [rows_block, w1_block, b1_block, w2_block, b2_block]
  obtain ⟨-, -, -, -, -, -, -, -, -, -, -, -, -, -, e0, e1⟩ := index_facts t
  funext j
  have h0 : ((((cfg0.win 7).blk t).view.emb j) 0).val = (blockNo t).val * 4096 + (((cfg0.win 7).xinj (grid0.coords t) j) 0).val := by
    show win0_7.index t (0 : Fin 2) * 4096 + 1 * (j 0).val = t.val * 4096 + (j 0).val
    omega
  have h1 : ((((cfg0.win 7).blk t).view.emb j) 1).val = (((cfg0.win 7).xinj (grid0.coords t) j) 1).val := by
    show win0_7.index t (1 : Fin 2) * 16 + 1 * (j 1).val = (j 1).val
    omega
  exact (Cert.Rows.ofBlocks_at (fun xb => k0_pay4 xb (V m c main_v0) (V m c main_v1) (V m c main_v14) (V m c main_v15)) (V m c main_arg0) (blockNo t)
    ((cfg0.win 7).xinj (grid0.coords t) j) (((cfg0.win 7).blk t).view.emb j) h0 h1).symm

/-- An index of the array is in point t's block iff each coordinate is in the block's range on its axis. -/
theorem mem_blk7 (t : Fin cfg0.N) (i : S524288x16.Idx) :
    i ∈ ((cfg0.win 7).blk t).view.set ↔ ∀ a : Fin 2, win0_7.index t a * S4096x16.size a ≤ (i a).val ∧ (i a).val < win0_7.index t a * S4096x16.size a + S4096x16.size a := by
  show i ∈ ((View.whole main_v16_2).slice (win0_7.rect t)).set ↔ _
  rw [View.set_slice_whole, Rect.mem_set_unit]
  exact Iff.rfl

/-- Every index of the array is in some point's block: row r is in the block of point r / 4096. -/
theorem cover7 (i : S524288x16.Idx) :
    ∃ t : Fin cfg0.N, (cfg0.win 7).flush t = true ∧ i ∈ ((cfg0.win 7).blk t).view.set := by
  have hi0 : (i 0).val < 524288 := (i 0).isLt
  have hi1 : (i 1).val < 16 := (i 1).isLt
  have hN : cfg0.N = 128 := N_0
  refine ⟨⟨(i 0).val / 4096, by rw [hN]; omega⟩, flush0_7 _, ?_⟩
  rw [mem_blk7]
  obtain ⟨-, -, -, -, -, -, -, -, -, -, -, -, -, -, e0, e1⟩ := index_facts ⟨(i 0).val / 4096, by rw [hN]; omega⟩
  intro a
  match a with
  | ⟨0, _⟩ => show win0_7.index _ (0 : Fin 2) * 4096 ≤ (i 0).val ∧ (i 0).val < win0_7.index _ (0 : Fin 2) * 4096 + 4096; rw [e0]; show (i 0).val / 4096 * 4096 ≤ (i 0).val ∧ (i 0).val < (i 0).val / 4096 * 4096 + 4096; omega
  | ⟨1, _⟩ => show win0_7.index _ (1 : Fin 2) * 16 ≤ (i 1).val ∧ (i 1).val < win0_7.index _ (1 : Fin 2) * 16 + 16; rw [e1]; omega

/-- The result array of window 7 after the run is the assembled array. -/
theorem final7 (c : Dev nD) : (dats m 0 c).arrAt 7 cfg0.N = G7 (V m c main_arg0) (V m c main_v0) (V m c main_v1) (V m c main_v14) (V m c main_v15) :=
  (dats m 0 c).arrAt_eq_of_cover 7 _ (fun t _ => flushed7_eq m c t) cover7

/-! ## The run, read -/

/-- After the run, the rows' array is as launched: its window stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
/-- After the run, parameter array 1 is as launched: no window stages it and no host operation writes it. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
/-- After the run, parameter array 2 is as launched: no window stages it and no host operation writes it. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
/-- After the run, parameter array 3 is as launched: no window stages it and no host operation writes it. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
/-- After the run, parameter array 4 is as launched: no window stages it and no host operation writes it. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
/-- After the run, parameter array 5 is as launched: no window stages it and no host operation writes it. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)
/-- After the run, parameter array 6 is as launched: no window stages it and no host operation writes it. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)
/-- After the run, parameter array 7 is as launched: no window stages it and no host operation writes it. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)
/-- After the run, parameter array 8 is as launched: no window stages it and no host operation writes it. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)
/-- After the run, parameter array 9 is as launched: no window stages it and no host operation writes it. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)
/-- After the run, parameter array 10 is as launched: no window stages it and no host operation writes it. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)
/-- After the run, parameter array 11 is as launched: no window stages it and no host operation writes it. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)
/-- After the run, parameter array 12 is as launched: no window stages it and no host operation writes it. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- The program terminates without a fault; each of its three result arrays ends as the array assembled block by
    block from the corresponding stored payload over the launched rows and the joined parameters; and its thirteen
    arguments end as launched. -/
theorem run : θ_run defs (onTc (τ := τ) (main (F := F))) ⟨m, fun _ => 0, ρ⟩ fun r => ∀ c : Dev nD,
      r.2.mem ((c : Thread nD τ).loc main_v16_0) = G5 (m ((c : Thread nD τ).loc main_arg0)) (V m c main_v0) (V m c main_v1) (V m c main_v14) (V m c main_v15)
      ∧ r.2.mem ((c : Thread nD τ).loc main_v16_1) = G6 (m ((c : Thread nD τ).loc main_arg0)) (V m c main_v0) (V m c main_v1) (V m c main_v14) (V m c main_v15)
      ∧ r.2.mem ((c : Thread nD τ).loc main_v16_2) = G7 (m ((c : Thread nD τ).loc main_arg0)) (V m c main_v0) (V m c main_v1) (V m c main_v14) (V m c main_v15)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨
      (post5 m r h c).trans ((final5 m c).trans (congrArg (fun x => G5 x (V m c main_v0) (V m c main_v1) (V m c main_v14) (V m c main_v15)) (V_main_arg0 m c))),
      (post6 m r h c).trans ((final6 m c).trans (congrArg (fun x => G6 x (V m c main_v0) (V m c main_v1) (V m c main_v14) (V m c main_v15)) (V_main_arg0 m c))),
      (post7 m r h c).trans ((final7 m c).trans (congrArg (fun x => G7 x (V m c main_v0) (V m c main_v1) (V m c main_v14) (V m c main_v15)) (V_main_arg0 m c))),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

end Cert.KernelIdeal.Val

end
-- ==== Proof.ReferenceIdealFrame.lean ====
/-
  The frame of the reference program: it runs to the end, faults nowhere, and leaves its thirteen argument arrays
  as it found them; and, beyond that, every array the region writes ends at what the body stored, block by block.

  The reference joins the per-head parameters on the host as the kernel's program does, except that all six bias
  rows go side by side into ONE 1 × 78 row (the three first-layer biases, then the three second-layer biases),
  which its body cuts again at column 30. It then runs one region over 128 blocks of 4096 rows: at a block the
  body reads the block of rows, the joined first-layer weights, the joined biases and the block-diagonal
  second-layer weights whole, and stores three 4096 × 16 blocks, each a pure function (the skeleton's second,
  third and fourth payloads) of what it read. Each output buffer is read once before it is stored into; the value
  read is never used.
-/
import proofs.«105853_g2000302393245824_pallasbulk_1178_2_alg».proof.Proof.Gen.ReferenceIdeal.Launch
import proofs.«105853_g2000302393245824_pallasbulk_1178_2_alg».proof.Proof.Gen.ReferenceIdeal.Skeleton
import proofs.«105853_g2000302393245824_pallasbulk_1178_2_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.Fr

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- A core's buffers when the region is entered: the launch memory after the host operations that join the
    parameters. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: each writes its own result, and no result is an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 1: each writes its own result, and no result is an argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 2: each writes its own result, and no result is an argument. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 3: each writes its own result, and no result is an argument. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 4: each writes its own result, and no result is an argument. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 5: each writes its own result, and no result is an argument. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 6: each writes its own result, and no result is an argument. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 7: each writes its own result, and no result is an argument. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 8: each writes its own result, and no result is an argument. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 9: each writes its own result, and no result is an argument. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 10: each writes its own result, and no result is an argument. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 11: each writes its own result, and no result is an argument. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation writes argument 12: each writes its own result, and no result is an argument. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or
    not (unfetched, its block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or
    not (unfetched, its block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or
    not (unfetched, its block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetches it or
    not (unfetched, its block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- For any proof data whose arrays are the region-entry contents, a run that ends with every staged array at what
    the proof data computes and every other buffer as the region found it leaves the thirteen arguments as
    launched: the rows' array is window 0's, an input; the twelve parameter arrays are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## The body's accesses: every load and store is of a whole buffer -/

abbrev r_S4096x10 : Rect S4096x10 := Rect.unit (s := S4096x10) ![0, 0] S4096x10.size inb_S4096x10_S4096x10_0_0
abbrev r_S10x30 : Rect S10x30 := Rect.unit (s := S10x30) ![0, 0] S10x30.size inb_S10x30_S10x30_0_0
abbrev r_S1x78 : Rect S1x78 := Rect.unit (s := S1x78) ![0, 0] S1x78.size inb_S1x78_S1x78_0_0
abbrev r_S30x48 : Rect S30x48 := Rect.unit (s := S30x48) ![0, 0] S30x48.size inb_S30x48_S30x48_0_0
abbrev r_S4096x16 : Rect S4096x16 := Rect.unit (s := S4096x16) ![0, 0] S4096x16.size inb_S4096x16_S4096x16_0_0

/-! ## What the body leaves in each output window's buffer -/

/-- Window 4's staging buffer after the body: its one store, of payload 2 of the input blocks. -/
def out0_4 (x0 : Vec F S4096x10 .f32) (x1 : Vec F S10x30 .f32) (x2 : Vec F S1x78 .f32) (x3 : Vec F S30x48 .f32) : Vec F S4096x16 .f32 :=
  View.canon [⟨r_S4096x16, k0_pay2 (View.ld x0 r_S4096x10) (View.ld x2 r_S1x78) (View.ld x1 r_S10x30) (View.ld x3 r_S30x48)⟩]
/-- Window 5's staging buffer after the body: its one store, of payload 3 of the input blocks. -/
def out0_5 (x0 : Vec F S4096x10 .f32) (x1 : Vec F S10x30 .f32) (x2 : Vec F S1x78 .f32) (x3 : Vec F S30x48 .f32) : Vec F S4096x16 .f32 :=
  View.canon [⟨r_S4096x16, k0_pay3 (View.ld x0 r_S4096x10) (View.ld x2 r_S1x78) (View.ld x1 r_S10x30) (View.ld x3 r_S30x48)⟩]
/-- Window 6's staging buffer after the body: its one store, of payload 4 of the input blocks. -/
def out0_6 (x0 : Vec F S4096x10 .f32) (x1 : Vec F S10x30 .f32) (x2 : Vec F S1x78 .f32) (x3 : Vec F S30x48 .f32) : Vec F S4096x16 .f32 :=
  View.canon [⟨r_S4096x16, k0_pay4 (View.ld x0 r_S4096x10) (View.ld x2 r_S1x78) (View.ld x1 r_S10x30) (View.ld x3 r_S30x48)⟩]

/-- One store of the whole buffer covers it. -/
theorem cover_whole (p0 : Vec F S4096x16 .f32) (y : S4096x16.Idx) :
    ∃ pc ∈ ([⟨r_S4096x16, p0⟩] : List (View.Piece (Elt F) S4096x16 .f32)), y ∈ pc.1.set :=
  View.cover_of_tiled [⟨r_S4096x16, p0⟩] S4096x16.size (by rfl) y

/-! ## The body's triple -/

set_option maxHeartbeats 1000000 in
/-- The body on whole staging buffers, the inputs' at read contents and the outputs' at anything, runs to the
    continuation holding the inputs' as they were and each output's at its one store over the inputs'. -/
theorem sound_kernel (c : Dev nD) (E : Set ℕ) (i : grid0.Coords) (arg1 : Memref sig .tc .vmem S4096x10 .f32) (harg1 : arg1.IsWhole) (arg2 : Memref sig .tc .vmem S10x30 .f32) (harg2 : arg2.IsWhole) (arg3 : Memref sig .tc .vmem S1x78 .f32) (harg3 : arg3.IsWhole) (arg4 : Memref sig .tc .vmem S30x48 .f32) (harg4 : arg4.IsWhole) (arg5 : Memref sig .tc .vmem S4096x16 .f32) (harg5 : arg5.IsWhole) (arg6 : Memref sig .tc .vmem S4096x16 .f32) (harg6 : arg6.IsWhole) (arg7 : Memref sig .tc .vmem S4096x16 .f32) (harg7 : arg7.IsWhole)
    (x0 : Vec F S4096x10 .f32) (x1 : Vec F S10x30 .f32) (x2 : Vec F S1x78 .f32) (x3 : Vec F S30x48 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3)) -∗ K ⟨⟩))
      ⊢ wp frame (wpE (defs₀ (F := F)) Variants.none c none) E (cc0__mdn_fused_kernel i arg1 harg1 arg2 harg2 arg3 harg3 arg4 harg4 arg5 harg5 arg6 harg6 arg7 harg7) K := by
  simp only [cc0__mdn_fused_kernel_eq_skeleton]; unfold cc0__mdn_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_whole _)
  isplitl [H5]
  · iexists _; isplitr
    swap; · iexact H5
    ipureintro
    exact View.read_writes_eq_canon _ _ _ (cover_whole _)
  iexists _; isplitr
  swap; · iexact H6
  ipureintro
  exact View.read_writes_eq_canon _ _ _ (cover_whole _)

/-! ## The pipeline's proof data -/

/-- The proof data of the one pipeline on core `c`: the arrays as the region finds them; after the body at point
    `t` each input's buffer at its block and each output's at its store over the input blocks; nothing else of
    the core is touched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
    | ⟨5, _⟩ => out0_5 (iblk m c 0 t) (iblk m c 1 t) (iblk m c 2 t) (iblk m c 3 t)
    | ⟨6, _⟩ => out0_6 (iblk m c 0 t) (iblk m c 1 t) (iblk m c 2 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]
theorem after0_5 (c : Dev nD) (t : Fin cfg0.N) : (dats m 0 c).after 5 t = out0_5 (iblk m c 0 t) (iblk m c 1 t) (iblk m c 2 t) (iblk m c 3 t) := by dsimp only [dats]
theorem after0_6 (c : Dev nD) (t : Fin cfg0.N) : (dats m 0 c).after 6 t = out0_6 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the rest of the
    core passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final
    state has every array the region stages at what the proof data computes and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program terminates without a fault and its thirteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.ReferenceIdeal.Fr

end
-- ==== Proof.ReferenceIdealValue.lean ====
/-
  The three results of the reference program as whole arrays. At grid point t the body stores, into block t (rows
  4096 t … 4096 t + 4095) of each result array, a function of block t of the rows and of the three joined parameter
  arrays (the row of all six biases, the first-layer weights, the second-layer weights) read whole. The 128 blocks
  tile each result array, so each array ends as the function assembled block by block over the rows: entry (r, j) is
  the body's payload of the block of rows containing r, read at (r mod 4096, j).
-/
import proofs.«105853_g2000302393245824_pallasbulk_1178_2_alg».proof.Proof.ReferenceIdealFrame
import proofs.«105853_g2000302393245824_pallasbulk_1178_2_alg».proof.Proof.Rows
import Idealize.ShloMosaic.Lib.Pipeline.Value

noncomputable section

namespace Cert.ReferenceIdeal.Val

open Cert.ReferenceIdeal Cert.ReferenceIdeal.Gen Cert.ReferenceIdeal.Fr
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## The results as functions of the rows and the joined parameters -/

/-- The first result as an array assembled block by block from the body's first stored payload. -/
def G4 (x : FVec F S524288x10 .f32) (bias : FVec F S1x78 .f32) (w1 : FVec F S10x30 .f32) (w2 : FVec F S30x48 .f32) : FVec F S524288x16 .f32 :=
  Cert.Rows.ofBlocks (fun xb => k0_pay2 xb bias w1 w2) x
/-- The second result, from the second stored payload. -/
def G5 (x : FVec F S524288x10 .f32) (bias : FVec F S1x78 .f32) (w1 : FVec F S10x30 .f32) (w2 : FVec F S30x48 .f32) : FVec F S524288x16 .f32 :=
  Cert.Rows.ofBlocks (fun xb => k0_pay3 xb bias w1 w2) x
/-- The third result, from the third stored payload. -/
def G6 (x : FVec F S524288x10 .f32) (bias : FVec F S1x78 .f32) (w1 : FVec F S10x30 .f32) (w2 : FVec F S30x48 .f32) : FVec F S524288x16 .f32 :=
  Cert.Rows.ofBlocks (fun xb => k0_pay4 xb bias w1 w2) x

/-! ## Where each window's block sits in its array -/

theorem zero_offsets : (![0, 0] : Fin 2 → Nat) = fun _ => 0 := funext fun a => by fin_cases a <;> rfl

/-- A grid point as a block number below 128. -/
def blockNo (t : Fin cfg0.N) : Fin 128 := ⟨t.val, t.isLt.trans_eq N_0⟩

/-- The printed index maps, decided over the grid: the rows' window and the three result windows are at block
    (t, 0) at point t; the three parameter windows stay at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The rows' window at point t holds block t of the rows. -/
theorem rows_block (c : Dev nD) (t : Fin cfg0.N) :
    iblk m c 0 t = Cert.Rows.rowsBlock (V m c main_arg0) (blockNo t) := by
  obtain ⟨e0, e1, -⟩ := index_facts t
  funext y
  show V m c main_arg0 (((cfg0.win 0).blk t).view.emb y) = V m c main_arg0 _
  refine congrArg (V m c main_arg0) ?_
  funext a; apply Fin.ext
  match a with
  | ⟨0, _⟩ => show win0_0.index t (0 : Fin 2) * 4096 + 1 * (y 0).val = t.val * 4096 + (y 0).val; omega
  | ⟨1, _⟩ => show win0_0.index t (1 : Fin 2) * 10 + 1 * (y 1).val = (y 1).val; omega

/-- The first-layer weights' window holds its whole array at every point. -/
theorem w1_block (c : Dev nD) (t : Fin cfg0.N) : iblk m c 1 t = V m c main_v0 := by
  obtain ⟨-, -, e0, e1, -⟩ := index_facts t
  funext y
  show V m c main_v0 (((cfg0.win 1).blk t).view.emb y) = V m c main_v0 y
  refine congrArg (V m c main_v0) ?_
  funext a; apply Fin.ext
  match a with
  | ⟨0, _⟩ => show win0_1.index t (0 : Fin 2) * 10 + 1 * (y 0).val = (y 0).val; omega
  | ⟨1, _⟩ => show win0_1.index t (1 : Fin 2) * 30 + 1 * (y 1).val = (y 1).val; omega

/-- The window of the row of all six biases holds its whole array at every point. -/
theorem bias_block (c : Dev nD) (t : Fin cfg0.N) : iblk m c 2 t = V m c main_v14 := by
  obtain ⟨-, -, -, -, e0, e1, -⟩ := index_facts t
  funext y
  show V m c main_v14 (((cfg0.win 2).blk t).view.emb y) = V m c main_v14 y
  refine congrArg (V m c main_v14) ?_
  funext a; apply Fin.ext
  match a with
  | ⟨0, _⟩ => show win0_2.index t (0 : Fin 2) * 1 + 1 * (y 0).val = (y 0).val; omega
  | ⟨1, _⟩ => show win0_2.index t (1 : Fin 2) * 78 + 1 * (y 1).val = (y 1).val; omega

/-- The second-layer weights' window holds its whole array at every point. -/
theorem w2_block (c : Dev nD) (t : Fin cfg0.N) : iblk m c 3 t = V m c main_v13 := by
  obtain ⟨-, -, -, -, -, -, e0, e1, -⟩ := index_facts t
  funext y
  show V m c main_v13 (((cfg0.win 3).blk t).view.emb y) = V m c main_v13 y
  refine congrArg (V m c main_v13) ?_
  funext a; apply Fin.ext
  match a with
  | ⟨0, _⟩ => show win0_3.index t (0 : Fin 2) * 30 + 1 * (y 0).val = (y 0).val; omega
  | ⟨1, _⟩ => show win0_3.index t (1 : Fin 2) * 48 + 1 * (y 1).val = (y 1).val; omega

/-! ## Result window 4 -/

/-- After the run, the result array of window 4 is what the write-backs leave. -/
theorem post4 (r : PUnit × MemSt nD τ sig (Elt F)) (h : Pipeline.FramePost cfgs (dats m) 0 (V m) r) (c : Dev nD) :
    r.2.mem ((c : Thread nD τ).loc main_v15_0) = (dats m 0 c).arrAt 4 cfg0.N :=
  (h c).1 4

/-- What point t writes back through window 4 is block t of the assembled array: the stored payload is a function
    of block t of the rows and the whole parameter arrays, and entry y of the block sits at row 4096 t + y₀, column
    y₁ of the array. -/
theorem flushed4_eq (c : Dev nD) (t : Fin cfg0.N) :
    (dats m 0 c).flushed 4 t = ((cfg0.win 4).blk t).view.read (Elt F) (G4 (V m c main_arg0) (V m c main_v14) (V m c main_v0) (V m c main_v13)) := by
  show (cfg0.win 4).cut (grid0.coords t) ((dats m 0 c).after 4 t) = _
  rw [after0_4]
  unfold out0_4
  rw [View.canon_unit_zero zero_offsets]
  simp only [View.ld_unit_zero (S := S4096x10) zero_offsets, View.ld_unit_zero (S := S10x30) zero_offsets, View.ld_unit_zero (S := S1x78) zero_offsets, View.ld_unit_zero (S := S30x48) zero_offsets]
  rw [rows_block, w1_block, bias_block, w2_block]
  obtain ⟨-, -, -, -, -, -, -, -, e0, e1, -⟩ := index_facts t
  funext j
  have h0 : ((((cfg0.win 4).blk t).view.emb j) 0).val = (blockNo t).val * 4096 + (((cfg0.win 4).xinj (grid0.coords t) j) 0).val := by
    show win0_4.index t (0 : Fin 2) * 4096 + 1 * (j 0).val = t.val * 4096 + (j 0).val
    omega
  have h1 : ((((cfg0.win 4).blk t).view.emb j) 1).val = (((cfg0.win 4).xinj (grid0.coords t) j) 1).val := by
    show win0_4.index t (1 : Fin 2) * 16 + 1 * (j 1).val = (j 1).val
    omega
  exact (Cert.Rows.ofBlocks_at (fun xb => k0_pay2 xb (V m c main_v14) (V m c main_v0) (V m c main_v13)) (V m c main_arg0) (blockNo t)
    ((cfg0.win 4).xinj (grid0.coords t) j) (((cfg0.win 4).blk t).view.emb j) h0 h1).symm

/-- An index of the array is in point t's block iff each coordinate is in the block's range on its axis. -/
theorem mem_blk4 (t : Fin cfg0.N) (i : S524288x16.Idx) :
    i ∈ ((cfg0.win 4).blk t).view.set ↔ ∀ a : Fin 2, win0_4.index t a * S4096x16.size a ≤ (i a).val ∧ (i a).val < win0_4.index t a * S4096x16.size a + S4096x16.size a := by
  show i ∈ ((View.whole main_v15_0).slice (win0_4.rect t)).set ↔ _
  rw [View.set_slice_whole, Rect.mem_set_unit]
  exact Iff.rfl

/-- Every index of the array is in some point's block: row r is in the block of point r / 4096. -/
theorem cover4 (i : S524288x16.Idx) :
    ∃ t : Fin cfg0.N, (cfg0.win 4).flush t = true ∧ i ∈ ((cfg0.win 4).blk t).view.set := by
  have hi0 : (i 0).val < 524288 := (i 0).isLt
  have hi1 : (i 1).val < 16 := (i 1).isLt
  have hN : cfg0.N = 128 := N_0
  refine ⟨⟨(i 0).val / 4096, by rw [hN]; omega⟩, flush0_4 _, ?_⟩
  rw [mem_blk4]
  obtain ⟨-, -, -, -, -, -, -, -, e0, e1, -⟩ := index_facts ⟨(i 0).val / 4096, by rw [hN]; omega⟩
  intro a
  match a with
  | ⟨0, _⟩ => show win0_4.index _ (0 : Fin 2) * 4096 ≤ (i 0).val ∧ (i 0).val < win0_4.index _ (0 : Fin 2) * 4096 + 4096; rw [e0]; show (i 0).val / 4096 * 4096 ≤ (i 0).val ∧ (i 0).val < (i 0).val / 4096 * 4096 + 4096; omega
  | ⟨1, _⟩ => show win0_4.index _ (1 : Fin 2) * 16 ≤ (i 1).val ∧ (i 1).val < win0_4.index _ (1 : Fin 2) * 16 + 16; rw [e1]; omega

/-- The result array of window 4 after the run is the assembled array. -/
theorem final4 (c : Dev nD) : (dats m 0 c).arrAt 4 cfg0.N = G4 (V m c main_arg0) (V m c main_v14) (V m c main_v0) (V m c main_v13) :=
  (dats m 0 c).arrAt_eq_of_cover 4 _ (fun t _ => flushed4_eq m c t) cover4

/-! ## Result window 5 -/

/-- After the run, the result array of window 5 is what the write-backs leave. -/
theorem post5 (r : PUnit × MemSt nD τ sig (Elt F)) (h : Pipeline.FramePost cfgs (dats m) 0 (V m) r) (c : Dev nD) :
    r.2.mem ((c : Thread nD τ).loc main_v15_1) = (dats m 0 c).arrAt 5 cfg0.N :=
  (h c).1 5

/-- What point t writes back through window 5 is block t of the assembled array: the stored payload is a function
    of block t of the rows and the whole parameter arrays, and entry y of the block sits at row 4096 t + y₀, column
    y₁ of the array. -/
theorem flushed5_eq (c : Dev nD) (t : Fin cfg0.N) :
    (dats m 0 c).flushed 5 t = ((cfg0.win 5).blk t).view.read (Elt F) (G5 (V m c main_arg0) (V m c main_v14) (V m c main_v0) (V m c main_v13)) := by
  show (cfg0.win 5).cut (grid0.coords t) ((dats m 0 c).after 5 t) = _
  rw [after0_5]
  unfold out0_5
  rw [View.canon_unit_zero zero_offsets]
  simp only [View.ld_unit_zero (S := S4096x10) zero_offsets, View.ld_unit_zero (S := S10x30) zero_offsets, View.ld_unit_zero (S := S1x78) zero_offsets, View.ld_unit_zero (S := S30x48) zero_offsets]
  rw [rows_block, w1_block, bias_block, w2_block]
  obtain ⟨-, -, -, -, -, -, -, -, -, -, e0, e1, -⟩ := index_facts t
  funext j
  have h0 : ((((cfg0.win 5).blk t).view.emb j) 0).val = (blockNo t).val * 4096 + (((cfg0.win 5).xinj (grid0.coords t) j) 0).val := by
    show win0_5.index t (0 : Fin 2) * 4096 + 1 * (j 0).val = t.val * 4096 + (j 0).val
    omega
  have h1 : ((((cfg0.win 5).blk t).view.emb j) 1).val = (((cfg0.win 5).xinj (grid0.coords t) j) 1).val := by
    show win0_5.index t (1 : Fin 2) * 16 + 1 * (j 1).val = (j 1).val
    omega
  exact (Cert.Rows.ofBlocks_at (fun xb => k0_pay3 xb (V m c main_v14) (V m c main_v0) (V m c main_v13)) (V m c main_arg0) (blockNo t)
    ((cfg0.win 5).xinj (grid0.coords t) j) (((cfg0.win 5).blk t).view.emb j) h0 h1).symm

/-- An index of the array is in point t's block iff each coordinate is in the block's range on its axis. -/
theorem mem_blk5 (t : Fin cfg0.N) (i : S524288x16.Idx) :
    i ∈ ((cfg0.win 5).blk t).view.set ↔ ∀ a : Fin 2, win0_5.index t a * S4096x16.size a ≤ (i a).val ∧ (i a).val < win0_5.index t a * S4096x16.size a + S4096x16.size a := by
  show i ∈ ((View.whole main_v15_1).slice (win0_5.rect t)).set ↔ _
  rw [View.set_slice_whole, Rect.mem_set_unit]
  exact Iff.rfl

/-- Every index of the array is in some point's block: row r is in the block of point r / 4096. -/
theorem cover5 (i : S524288x16.Idx) :
    ∃ t : Fin cfg0.N, (cfg0.win 5).flush t = true ∧ i ∈ ((cfg0.win 5).blk t).view.set := by
  have hi0 : (i 0).val < 524288 := (i 0).isLt
  have hi1 : (i 1).val < 16 := (i 1).isLt
  have hN : cfg0.N = 128 := N_0
  refine ⟨⟨(i 0).val / 4096, by rw [hN]; omega⟩, flush0_5 _, ?_⟩
  rw [mem_blk5]
  obtain ⟨-, -, -, -, -, -, -, -, -, -, e0, e1, -⟩ := index_facts ⟨(i 0).val / 4096, by rw [hN]; omega⟩
  intro a
  match a with
  | ⟨0, _⟩ => show win0_5.index _ (0 : Fin 2) * 4096 ≤ (i 0).val ∧ (i 0).val < win0_5.index _ (0 : Fin 2) * 4096 + 4096; rw [e0]; show (i 0).val / 4096 * 4096 ≤ (i 0).val ∧ (i 0).val < (i 0).val / 4096 * 4096 + 4096; omega
  | ⟨1, _⟩ => show win0_5.index _ (1 : Fin 2) * 16 ≤ (i 1).val ∧ (i 1).val < win0_5.index _ (1 : Fin 2) * 16 + 16; rw [e1]; omega

/-- The result array of window 5 after the run is the assembled array. -/
theorem final5 (c : Dev nD) : (dats m 0 c).arrAt 5 cfg0.N = G5 (V m c main_arg0) (V m c main_v14) (V m c main_v0) (V m c main_v13) :=
  (dats m 0 c).arrAt_eq_of_cover 5 _ (fun t _ => flushed5_eq m c t) cover5

/-! ## Result window 6 -/

/-- After the run, the result array of window 6 is what the write-backs leave. -/
theorem post6 (r : PUnit × MemSt nD τ sig (Elt F)) (h : Pipeline.FramePost cfgs (dats m) 0 (V m) r) (c : Dev nD) :
    r.2.mem ((c : Thread nD τ).loc main_v15_2) = (dats m 0 c).arrAt 6 cfg0.N :=
  (h c).1 6

/-- What point t writes back through window 6 is block t of the assembled array: the stored payload is a function
    of block t of the rows and the whole parameter arrays, and entry y of the block sits at row 4096 t + y₀, column
    y₁ of the array. -/
theorem flushed6_eq (c : Dev nD) (t : Fin cfg0.N) :
    (dats m 0 c).flushed 6 t = ((cfg0.win 6).blk t).view.read (Elt F) (G6 (V m c main_arg0) (V m c main_v14) (V m c main_v0) (V m c main_v13)) := by
  show (cfg0.win 6).cut (grid0.coords t) ((dats m 0 c).after 6 t) = _
  rw [after0_6]
  unfold out0_6
  rw [View.canon_unit_zero zero_offsets]
  simp only [View.ld_unit_zero (S := S4096x10) zero_offsets, View.ld_unit_zero (S := S10x30) zero_offsets, View.ld_unit_zero (S := S1x78) zero_offsets, View.ld_unit_zero (S := S30x48) zero_offsets]
  rw [rows_block, w1_block, bias_block, w2_block]
  obtain ⟨-, -, -, -, -, -, -, -, -, -, -, -, e0, e1⟩ := index_facts t
  funext j
  have h0 : ((((cfg0.win 6).blk t).view.emb j) 0).val = (blockNo t).val * 4096 + (((cfg0.win 6).xinj (grid0.coords t) j) 0).val := by
    show win0_6.index t (0 : Fin 2) * 4096 + 1 * (j 0).val = t.val * 4096 + (j 0).val
    omega
  have h1 : ((((cfg0.win 6).blk t).view.emb j) 1).val = (((cfg0.win 6).xinj (grid0.coords t) j) 1).val := by
    show win0_6.index t (1 : Fin 2) * 16 + 1 * (j 1).val = (j 1).val
    omega
  exact (Cert.Rows.ofBlocks_at (fun xb => k0_pay4 xb (V m c main_v14) (V m c main_v0) (V m c main_v13)) (V m c main_arg0) (blockNo t)
    ((cfg0.win 6).xinj (grid0.coords t) j) (((cfg0.win 6).blk t).view.emb j) h0 h1).symm

/-- An index of the array is in point t's block iff each coordinate is in the block's range on its axis. -/
theorem mem_blk6 (t : Fin cfg0.N) (i : S524288x16.Idx) :
    i ∈ ((cfg0.win 6).blk t).view.set ↔ ∀ a : Fin 2, win0_6.index t a * S4096x16.size a ≤ (i a).val ∧ (i a).val < win0_6.index t a * S4096x16.size a + S4096x16.size a := by
  show i ∈ ((View.whole main_v15_2).slice (win0_6.rect t)).set ↔ _
  rw [View.set_slice_whole, Rect.mem_set_unit]
  exact Iff.rfl

/-- Every index of the array is in some point's block: row r is in the block of point r / 4096. -/
theorem cover6 (i : S524288x16.Idx) :
    ∃ t : Fin cfg0.N, (cfg0.win 6).flush t = true ∧ i ∈ ((cfg0.win 6).blk t).view.set := by
  have hi0 : (i 0).val < 524288 := (i 0).isLt
  have hi1 : (i 1).val < 16 := (i 1).isLt
  have hN : cfg0.N = 128 := N_0
  refine ⟨⟨(i 0).val / 4096, by rw [hN]; omega⟩, flush0_6 _, ?_⟩
  rw [mem_blk6]
  obtain ⟨-, -, -, -, -, -, -, -, -, -, -, -, e0, e1⟩ := index_facts ⟨(i 0).val / 4096, by rw [hN]; omega⟩
  intro a
  match a with
  | ⟨0, _⟩ => show win0_6.index _ (0 : Fin 2) * 4096 ≤ (i 0).val ∧ (i 0).val < win0_6.index _ (0 : Fin 2) * 4096 + 4096; rw [e0]; show (i 0).val / 4096 * 4096 ≤ (i 0).val ∧ (i 0).val < (i 0).val / 4096 * 4096 + 4096; omega
  | ⟨1, _⟩ => show win0_6.index _ (1 : Fin 2) * 16 ≤ (i 1).val ∧ (i 1).val < win0_6.index _ (1 : Fin 2) * 16 + 16; rw [e1]; omega

/-- The result array of window 6 after the run is the assembled array. -/
theorem final6 (c : Dev nD) : (dats m 0 c).arrAt 6 cfg0.N = G6 (V m c main_arg0) (V m c main_v14) (V m c main_v0) (V m c main_v13) :=
  (dats m 0 c).arrAt_eq_of_cover 6 _ (fun t _ => flushed6_eq m c t) cover6

/-! ## The run, read -/

/-- After the run, the rows' array is as launched: its window stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
/-- After the run, parameter array 1 is as launched: no window stages it and no host operation writes it. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
/-- After the run, parameter array 2 is as launched: no window stages it and no host operation writes it. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
/-- After the run, parameter array 3 is as launched: no window stages it and no host operation writes it. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
/-- After the run, parameter array 4 is as launched: no window stages it and no host operation writes it. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
/-- After the run, parameter array 5 is as launched: no window stages it and no host operation writes it. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)
/-- After the run, parameter array 6 is as launched: no window stages it and no host operation writes it. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)
/-- After the run, parameter array 7 is as launched: no window stages it and no host operation writes it. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)
/-- After the run, parameter array 8 is as launched: no window stages it and no host operation writes it. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)
/-- After the run, parameter array 9 is as launched: no window stages it and no host operation writes it. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)
/-- After the run, parameter array 10 is as launched: no window stages it and no host operation writes it. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)
/-- After the run, parameter array 11 is as launched: no window stages it and no host operation writes it. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)
/-- After the run, parameter array 12 is as launched: no window stages it and no host operation writes it. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- The program terminates without a fault; each of its three result arrays ends as the array assembled block by
    block from the corresponding stored payload over the launched rows and the joined parameters; and its thirteen
    arguments end as launched. -/
theorem run : θ_run defs (onTc (τ := τ) (main (F := F))) ⟨m, fun _ => 0, ρ⟩ fun r => ∀ c : Dev nD,
      r.2.mem ((c : Thread nD τ).loc main_v15_0) = G4 (m ((c : Thread nD τ).loc main_arg0)) (V m c main_v14) (V m c main_v0) (V m c main_v13)
      ∧ r.2.mem ((c : Thread nD τ).loc main_v15_1) = G5 (m ((c : Thread nD τ).loc main_arg0)) (V m c main_v14) (V m c main_v0) (V m c main_v13)
      ∧ r.2.mem ((c : Thread nD τ).loc main_v15_2) = G6 (m ((c : Thread nD τ).loc main_arg0)) (V m c main_v14) (V m c main_v0) (V m c main_v13)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨
      (post4 m r h c).trans ((final4 m c).trans (congrArg (fun x => G4 x (V m c main_v14) (V m c main_v0) (V m c main_v13)) (V_main_arg0 m c))),
      (post5 m r h c).trans ((final5 m c).trans (congrArg (fun x => G5 x (V m c main_v14) (V m c main_v0) (V m c main_v13)) (V_main_arg0 m c))),
      (post6 m r h c).trans ((final6 m c).trans (congrArg (fun x => G6 x (V m c main_v14) (V m c main_v0) (V m c main_v13)) (V_main_arg0 m c))),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

end Cert.ReferenceIdeal.Val

end
-- ==== Proof.Reals.lean ====
/-
  Vectors over the extended reals all of whose entries are real numbers. The certificate's precondition makes every
  argument array such a vector, and sums, products, maxima and re-arrangements of such vectors are such vectors
  again; that is what lets the normalisation of the mixture weights be shifted by a row's maximum.
-/
import Idealize.ShloMosaic.PureOps.Ideal

noncomputable section

namespace Cert.Reals

open Idealize.ShloMosaic

/-- Every entry of the vector is (the coercion of) a real number: neither infinity occurs. -/
def AllReal {S : Shape} (v : S.Idx → EReal) : Prop := ∀ i, ∃ r : ℝ, v i = (r : EReal)

/-- A vector each of whose entries is an entry of a vector of reals is a vector of reals. -/
theorem AllReal.of_entries {S T : Shape} {v : S.Idx → EReal} (hv : AllReal v) (u : T.Idx → EReal)
    (h : ∀ j, ∃ i, u j = v i) : AllReal u := fun j => by
  obtain ⟨i, hi⟩ := h j
  obtain ⟨r, hr⟩ := hv i
  exact ⟨r, hi.trans hr⟩

/-- Re-indexing keeps the entries real. -/
theorem AllReal.comp {S T : Shape} {v : S.Idx → EReal} (hv : AllReal v) (f : T.Idx → S.Idx) : AllReal (fun j => v (f j)) :=
  fun j => hv (f j)

end Cert.Reals

end
-- ==== Proof.Joined.lean ====
/-
  Rows laid end to end, cut apart again, and overwritten — three re-arrangements of arrays, stated over the
  library's definitions alone. A row of 78 entries made by joining three pieces of 10 and three of 16 is, on its
  first 30 columns, the join of the first three pieces, and on its last 48 columns the join of the last three:
  a column of the long row and the matching column of the short row fall in the same piece at the same place.
  Joining pieces of real entries, or writing real entries over real entries, leaves real entries: every entry of
  the result is an entry of one of the inputs.
-/
import proofs.«105853_g2000302393245824_pallasbulk_1178_2_alg».proof.Proof.Reals
import Idealize.ShloMosaic.Lib.Pipeline.Value
import Idealize.ShloMosaic.Lib.ValueIdx

noncomputable section

namespace Cert.Joined

open Idealize.ShloMosaic Idealize.ShloMosaic.ValueIdx

abbrev S1x10 : Shape := ⟨2, ![1, 10]⟩
abbrev S1x16 : Shape := ⟨2, ![1, 16]⟩
abbrev S1x30 : Shape := ⟨2, ![1, 30]⟩
abbrev S1x48 : Shape := ⟨2, ![1, 48]⟩
abbrev S1x78 : Shape := ⟨2, ![1, 78]⟩

/-- A join of one-row pieces along the columns, read at a column: if the pieces before piece `k` span `pre`
    columns and the column is `pre + c` with `c` inside piece `k`, the entry is piece `k`'s at column `c`.
    (The general reading lemma, with the row coordinate — always 0 — discharged once.) -/
theorem cat_row {α : Type} {T : Nat} (xs : List ((s : Shape) × (s.Idx → α)))
    (h : Shape.Concatenates (xs.map (·.1)) (⟨2, ![1, T]⟩ : Shape) 1) (j : (⟨2, ![1, T]⟩ : Shape).Idx)
    (k : Nat) (hk : k < xs.length) (n : Nat) (x₁ : (⟨2, ![1, n]⟩ : Shape).Idx → α)
    (hxk : xs[k] = ⟨(⟨2, ![1, n]⟩ : Shape), x₁⟩) (pre : Nat)
    (hpre : (((xs.take k).map (·.1)).map fun s : Shape =>
      if h : s.rank = (⟨2, ![1, T]⟩ : Shape).rank then s.size ((1 : Fin (⟨2, ![1, T]⟩ : Shape).rank).cast h.symm) else 0).sum = pre)
    (c : Nat) (hc : c < n) (ha : pre + c = (j 1).val) :
    concatenate (⟨2, ![1, T]⟩ : Shape) 1 xs h j = x₁ (ix2 (0 : Fin 1) ⟨c, hc⟩) := by
  refine concatenate_apply_piece 1 xs h j k hk _ x₁ hxk rfl pre hpre _ ?_ ?_
  · intro b hb
    match b with
    | ⟨0, _⟩ =>
      have := idx2_lt0 j
      show 0 = (j 0).val
      omega
    | ⟨1, _⟩ => exact absurd rfl hb
  · exact ha

/-- The row of six pieces, cut to its first 30 columns, is the row of the first three pieces: column `c` of
    either row lies in piece `c / 10` at place `c % 10`. -/
theorem slice_left {α : Type} (u0 u1 u2 : S1x10.Idx → α) (u3 u4 u5 : S1x16.Idx → α)
    (h6 : Shape.Concatenates (([⟨S1x10, u0⟩, ⟨S1x10, u1⟩, ⟨S1x10, u2⟩, ⟨S1x16, u3⟩, ⟨S1x16, u4⟩, ⟨S1x16, u5⟩] : List ((s : Shape) × (s.Idx → α))).map (·.1)) S1x78 1)
    (h3 : Shape.Concatenates (([⟨S1x10, u0⟩, ⟨S1x10, u1⟩, ⟨S1x10, u2⟩] : List ((s : Shape) × (s.Idx → α))).map (·.1)) S1x30 1)
    (hs : S1x78.Slices ![0, 0] S1x30) :
    extractStridedSlice S1x30 ![0, 0] (concatenate S1x78 1 [⟨S1x10, u0⟩, ⟨S1x10, u1⟩, ⟨S1x10, u2⟩, ⟨S1x16, u3⟩, ⟨S1x16, u4⟩, ⟨S1x16, u5⟩] h6) hs
      = concatenate S1x30 1 [⟨S1x10, u0⟩, ⟨S1x10, u1⟩, ⟨S1x10, u2⟩] h3 := by
  funext j
  have hc : (j 1).val < 30 := idx2_lt1 j
  have hr : (j 0).val < 1 := idx2_lt0 j
  -- the cut reads the long row at the same column
  refine (extractStridedSlice_apply _ _ hs j (ix2 (0 : Fin 1) (⟨(j 1).val, by omega⟩ : Fin 78)) ?_).trans ?_
  · intro a
    match a with
    | ⟨0, _⟩ => show 0 = 0 + (j 0).val; omega
    | ⟨1, _⟩ => show (j 1).val = 0 + (j 1).val; omega
  by_cases h1 : (j 1).val < 10
  · exact (cat_row _ h6 _ 0 (by simp) 10 u0 rfl 0 rfl (j 1).val h1 (by show 0 + (j 1).val = (j 1).val; omega)).trans
      (cat_row _ h3 j 0 (by simp) 10 u0 rfl 0 rfl (j 1).val h1 (by omega)).symm
  by_cases h2 : (j 1).val < 20
  · exact (cat_row _ h6 _ 1 (by simp) 10 u1 rfl 10 rfl ((j 1).val - 10) (by omega)
        (by show 10 + ((j 1).val - 10) = (j 1).val; omega)).trans
      (cat_row _ h3 j 1 (by simp) 10 u1 rfl 10 rfl ((j 1).val - 10) (by omega) (by omega)).symm
  · exact (cat_row _ h6 _ 2 (by simp) 10 u2 rfl 20 rfl ((j 1).val - 20) (by omega)
        (by show 20 + ((j 1).val - 20) = (j 1).val; omega)).trans
      (cat_row _ h3 j 2 (by simp) 10 u2 rfl 20 rfl ((j 1).val - 20) (by omega) (by omega)).symm

/-- The row of six pieces, cut to its last 48 columns, is the row of the last three pieces: column `30 + c` of the
    long row and column `c` of the short one both lie in the piece numbered `c / 16` among the last three, at place
    `c % 16` (the three pieces before them fill exactly the 30 columns cut away). -/
theorem slice_right {α : Type} (u0 u1 u2 : S1x10.Idx → α) (u3 u4 u5 : S1x16.Idx → α)
    (h6 : Shape.Concatenates (([⟨S1x10, u0⟩, ⟨S1x10, u1⟩, ⟨S1x10, u2⟩, ⟨S1x16, u3⟩, ⟨S1x16, u4⟩, ⟨S1x16, u5⟩] : List ((s : Shape) × (s.Idx → α))).map (·.1)) S1x78 1)
    (h3' : Shape.Concatenates (([⟨S1x16, u3⟩, ⟨S1x16, u4⟩, ⟨S1x16, u5⟩] : List ((s : Shape) × (s.Idx → α))).map (·.1)) S1x48 1)
    (hs' : S1x78.Slices ![0, 30] S1x48) :
    extractStridedSlice S1x48 ![0, 30] (concatenate S1x78 1 [⟨S1x10, u0⟩, ⟨S1x10, u1⟩, ⟨S1x10, u2⟩, ⟨S1x16, u3⟩, ⟨S1x16, u4⟩, ⟨S1x16, u5⟩] h6) hs'
      = concatenate S1x48 1 [⟨S1x16, u3⟩, ⟨S1x16, u4⟩, ⟨S1x16, u5⟩] h3' := by
  funext j
  have hc : (j 1).val < 48 := idx2_lt1 j
  have hr : (j 0).val < 1 := idx2_lt0 j
  -- the cut reads the long row 30 columns further on
  refine (extractStridedSlice_apply _ _ hs' j (ix2 (0 : Fin 1) (⟨30 + (j 1).val, by omega⟩ : Fin 78)) ?_).trans ?_
  · intro a
    match a with
    | ⟨0, _⟩ => show 0 = 0 + (j 0).val; omega
    | ⟨1, _⟩ => rfl
  by_cases h1 : (j 1).val < 16
  · exact (cat_row _ h6 _ 3 (by simp) 16 u3 rfl 30 rfl (j 1).val h1 rfl).trans
      (cat_row _ h3' j 0 (by simp) 16 u3 rfl 0 rfl (j 1).val h1 (by omega)).symm
  by_cases h2 : (j 1).val < 32
  · exact (cat_row _ h6 _ 4 (by simp) 16 u4 rfl 46 rfl ((j 1).val - 16) (by omega)
        (by show 46 + ((j 1).val - 16) = 30 + (j 1).val; omega)).trans
      (cat_row _ h3' j 1 (by simp) 16 u4 rfl 16 rfl ((j 1).val - 16) (by omega) (by omega)).symm
  · exact (cat_row _ h6 _ 5 (by simp) 16 u5 rfl 62 rfl ((j 1).val - 32) (by omega)
        (by show 62 + ((j 1).val - 32) = 30 + (j 1).val; omega)).trans
      (cat_row _ h3' j 2 (by simp) 16 u5 rfl 32 rfl ((j 1).val - 32) (by omega) (by omega)).symm

/-- A join of pieces with real entries has real entries: each entry of the join is, by definition, an entry of the
    piece in whose span its coordinate along the joining axis falls, and that piece is one of the list. -/
theorem concatenate_allReal (t : Shape) (a : Fin t.rank) (xs : List ((s : Shape) × (s.Idx → EReal)))
    (h : Shape.Concatenates (xs.map (·.1)) t a)
    (hx : ∀ p ∈ xs, Cert.Reals.AllReal p.2) : Cert.Reals.AllReal (concatenate t a xs h) := by
  intro j
  unfold concatenate
  dsimp only
  exact hx _ (List.getElem_mem _) _

/-- One step of the overwriting fold keeps real entries: the new vector is the old one except at one place, where it
    is an entry of the update (or it is the old one unchanged when the update's place is outside the operand). -/
theorem scatter_fold_allReal {s si u : Shape} {w : Nat} (d : ScatterDims s si u) (idx : IVec si w) (upd : u.Idx → EReal)
    (hu : Cert.Reals.AllReal upd) : ∀ (l : List (Fin u.numel)) (r : s.Idx → EReal), Cert.Reals.AllReal r →
      Cert.Reals.AllReal (l.foldl (fun r n =>
        match d.resultIdx? (u.rowMajor.symm n) idx with
        | some i => fun i' => if i' = i then (fun _ b => b) (r i) (upd (u.rowMajor.symm n)) else r i'
        | none => r) r)
  | [], r, hr => hr
  | n :: l, r, hr => by
    rw [List.foldl_cons]
    refine scatter_fold_allReal d idx upd hu l _ ?_
    split
    · intro i'
      dsimp only
      split
      · exact hu _
      · exact hr _
    · exact hr

/-- Writing real entries over a vector of real entries leaves real entries: the overwriting is a fold of steps each
    of which keeps the entries real. -/
theorem scatter_allReal {s si u : Shape} {w : Nat} (d : ScatterDims s si u) (x : s.Idx → EReal) (idx : IVec si w)
    (upd : u.Idx → EReal) (hx : Cert.Reals.AllReal x) (hu : Cert.Reals.AllReal upd) :
    Cert.Reals.AllReal (Host.scatter d (fun _ b => b) x idx upd) :=
  scatter_fold_allReal d idx upd hu _ x hx

end Cert.Joined

end
-- ==== Proof.RealOps.lean ====
/-
  Operations that keep a vector's entries real. Re-arrangements (a broadcast, a cast of the shape, a slice) read
  each entry of the result off an entry of the operand; a sum or a maximum of two reals is real; and a matrix
  product into a zero accumulator is, entry by entry, a finite sum of products of reals. Together these say that
  the two-layer network's pre-activations are real whenever the rows, the weights and the biases are.
-/
import Idealize.ShloMosaic.PureOps.Ideal.Laws
import Idealize.ShloMosaic.Lib.ValueIdx
import proofs.«105853_g2000302393245824_pallasbulk_1178_2_alg».proof.Proof.Reals

noncomputable section

open scoped BigOperators

namespace Cert.Reals

open Idealize.ShloMosaic Idealize.ShloMosaic.ValueIdx

variable {S T : Shape}

/-- A finite sum of coercions of reals is the coercion of the sum. -/
theorem coe_finset_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A finite sum of reals is real. -/
theorem sum_real {ι : Type} (s : Finset ι) (f : ι → EReal) (hf : ∀ k, ∃ r : ℝ, f k = (r : EReal)) : ∃ r : ℝ, (∑ k ∈ s, f k) = (r : EReal) := by
  obtain ⟨g, rfl⟩ : ∃ g : ι → ℝ, f = fun k => ((g k : ℝ) : EReal) := ⟨fun k => (hf k).choose, funext fun k => (hf k).choose_spec⟩
  exact ⟨∑ k ∈ s, g k, coe_finset_sum s g⟩

theorem AllReal.broadcastTo {v : S.Idx → EReal} (hv : AllReal v) (h : S.Broadcasts T) : AllReal (broadcastTo T v h) :=
  fun _ => hv _

theorem AllReal.shapeCast {v : S.Idx → EReal} (hv : AllReal v) (h : S.ShapeCasts T) : AllReal (shapeCast T v h) :=
  fun _ => hv _

theorem AllReal.slice {v : S.Idx → EReal} (hv : AllReal v) (off : Fin S.rank → Nat) (h : S.Slices off T) :
    AllReal (extractStridedSlice T off v h) :=
  fun _ => hv _

/-- The splat of the zero pattern. -/
theorem allReal_zero_splat : AllReal (S := S) (broadcast S (Scalar.ofBits (F := Ideal) .f32 0x00000000#32)) :=
  fun _ => ⟨0, by show Ideal.ofBits .f32 0x00000000#32 = _; rw [Ideal.ofBits_zero_f32]; rfl⟩

theorem AllReal.addf {a b : FVec Ideal S .f32} (ha : AllReal (S := S) a) (hb : AllReal (S := S) b) : AllReal (S := S) (addf a b) := fun i => by
  obtain ⟨x, hx⟩ := ha i
  obtain ⟨y, hy⟩ := hb i
  exact ⟨x + y, by rw [addf_apply, hx, hy, EReal.coe_add]⟩

theorem AllReal.maximumf {a b : FVec Ideal S .f32} (ha : AllReal (S := S) a) (hb : AllReal (S := S) b) : AllReal (S := S) (maximumf a b) := fun i => by
  obtain ⟨x, hx⟩ := ha i
  obtain ⟨y, hy⟩ := hb i
  exact ⟨max x y, by rw [maximumf_apply, hx, hy]; exact (EReal.coe_strictMono.monotone.map_max).symm⟩

/-- A matrix product into the zero accumulator, of real operands, whatever precision it names. -/
theorem AllReal.matmul_zero {sl sr so : Shape} (d : DotDims sl sr so) (prec : Option ContractPrecision)
    {a : FVec Ideal sl .f32} {b : FVec Ideal sr .f32} (ha : AllReal (S := sl) a) (hb : AllReal (S := sr) b) :
    AllReal (S := so) (matmul d prec a b (constant so .f32 0x00000000#32)) := fun j => by
  show ∃ r : ℝ, FloatOps.matmul d prec a b (constant so .f32 0x00000000#32) j = _
  rw [Ideal.matmul_constant_zero_apply]
  refine sum_real _ _ fun k => ?_
  obtain ⟨x, hx⟩ := ha (d.lhsIdx j k)
  obtain ⟨y, hy⟩ := hb (d.rhsIdx j k)
  exact ⟨x * y, by rw [hx, hy, EReal.coe_mul]⟩

end Cert.Reals

end
-- ==== Proof.KernelIdealHost.lean ====
/-
  What the host operations before the region leave in the arrays the region stages, as functions of the
  argument arrays: the per-head parameters joined into the fused ones. Nothing here is computed on: each joined
  array is named, read off the host operations' results, and shown to have real entries when the pieces have.
-/
import proofs.«105853_g2000302393245824_pallasbulk_1178_2_alg».proof.Proof.KernelIdealFrame
import proofs.«105853_g2000302393245824_pallasbulk_1178_2_alg».proof.Proof.Joined
import proofs.«105853_g2000302393245824_pallasbulk_1178_2_alg».proof.Proof.RealOps
import Idealize.ShloMosaic.Lib.StableHlo.Run

noncomputable section

namespace Cert.KernelIdeal.Host

open Cert.KernelIdeal Cert.KernelIdeal.Gen Cert.KernelIdeal.Fr
open Idealize.ShloMosaic Idealize.ShloMosaic.TcCoe Idealize.ShloMosaic.StableHlo Idealize.SL.Sem Cert.Reals

section Defs
variable {F : FTy → Type} [FloatOps F]

/-- The start index (row, column) of one diagonal block, as the two-entry index vector the host builds. -/
def startIdx (r c : BitVec 32) : IVec S2 32 :=
  concatenate S2 0 [⟨S1, (broadcastInDim S1 ![] bcast_S_S1 (constantI S_ 32 r) : IVec S1 32)⟩, ⟨S1, (broadcastInDim S1 ![] bcast_S_S1 (constantI S_ 32 c) : IVec S1 32)⟩] concatenates_S1_S1_S2_d0

/-- The three first-layer weight matrices side by side. -/
def joinW1 (a1 a5 a9 : FVec F S10x10 .f32) : FVec F S10x30 .f32 :=
  concatenate S10x30 1 [⟨S10x10, a1⟩, ⟨S10x10, a5⟩, ⟨S10x10, a9⟩] concatenates_S10x10_S10x10_S10x10_S10x30_d1

/-- The three second-layer weight matrices on the diagonal of a 30 × 48 matrix of zeros: written one after the
    other at (0, 0), (10, 16) and (20, 32). -/
def blockDiag (a3 a7 a11 : FVec F S10x16 .f32) : FVec F S30x48 .f32 :=
  Host.scatter scatter_S30x48_S2_S10x16_01_n_01_0 (fun _ b => b)
    (Host.scatter scatter_S30x48_S2_S10x16_01_n_01_0 (fun _ b => b)
      (Host.scatter scatter_S30x48_S2_S10x16_01_n_01_0 (fun _ b => b)
        (broadcastInDim S30x48 ![] bcast_S_S30x48 (constant S_ .f32 0x00000000#32)) (startIdx 0#32 0#32) a3)
      (startIdx 10#32 16#32) a7)
    (startIdx 20#32 32#32) a11

/-- The three first-layer bias rows side by side. -/
def joinB1 (a2 a6 a10 : FVec F S1x10 .f32) : FVec F S1x30 .f32 :=
  concatenate S1x30 1 [⟨S1x10, a2⟩, ⟨S1x10, a6⟩, ⟨S1x10, a10⟩] concatenates_S1x10_S1x10_S1x10_S1x30_d1

/-- The three second-layer bias rows side by side. -/
def joinB2 (a4 a8 a12 : FVec F S1x16 .f32) : FVec F S1x48 .f32 :=
  concatenate S1x48 1 [⟨S1x16, a4⟩, ⟨S1x16, a8⟩, ⟨S1x16, a12⟩] concatenates_S1x16_S1x16_S1x16_S1x48_d1

variable (m : (ℓ : Loc nD τ sig) → Buf (Elt F) ℓ)

theorem V_w1 (c : Dev nD) : V m c main_v0 = joinW1 (m ((c : Thread nD τ).loc main_arg1)) (m ((c : Thread nD τ).loc main_arg5)) (m ((c : Thread nD τ).loc main_arg9)) := by
  unfold joinW1
  dsimp only [V, hostOps0]
  after_results
  rfl

theorem V_w2 (c : Dev nD) : V m c main_v14 = blockDiag (m ((c : Thread nD τ).loc main_arg3)) (m ((c : Thread nD τ).loc main_arg7)) (m ((c : Thread nD τ).loc main_arg11)) := by
  unfold blockDiag startIdx
  dsimp only [V, hostOps0]
  after_results_simp
  rfl

theorem V_b1 (c : Dev nD) : V m c main_v1 = joinB1 (m ((c : Thread nD τ).loc main_arg2)) (m ((c : Thread nD τ).loc main_arg6)) (m ((c : Thread nD τ).loc main_arg10)) := by
  unfold joinB1
  dsimp only [V, hostOps0]
  after_results
  rfl

theorem V_b2 (c : Dev nD) : V m c main_v15 = joinB2 (m ((c : Thread nD τ).loc main_arg4)) (m ((c : Thread nD τ).loc main_arg8)) (m ((c : Thread nD τ).loc main_arg12)) := by
  unfold joinB2
  dsimp only [V, hostOps0]
  after_results
  rfl

end Defs

/-! ## Real pieces give real joined arrays -/

theorem joinW1_real {a1 a5 a9 : FVec Ideal S10x10 .f32} (h1 : AllReal (S := S10x10) a1) (h5 : AllReal (S := S10x10) a5) (h9 : AllReal (S := S10x10) a9) :
    AllReal (S := S10x30) (joinW1 a1 a5 a9) :=
  Cert.Joined.concatenate_allReal _ _ _ _ (by
    intro p hp
    simp only [List.mem_cons, List.not_mem_nil, or_false] at hp
    rcases hp with rfl | rfl | rfl
    exacts [h1, h5, h9])

theorem blockDiag_real {a3 a7 a11 : FVec Ideal S10x16 .f32} (h3 : AllReal (S := S10x16) a3) (h7 : AllReal (S := S10x16) a7) (h11 : AllReal (S := S10x16) a11) :
    AllReal (S := S30x48) (blockDiag a3 a7 a11) :=
  Cert.Joined.scatter_allReal _ _ _ _
    (Cert.Joined.scatter_allReal _ _ _ _
      (Cert.Joined.scatter_allReal _ _ _ _
        (fun _ => ⟨0, by show Ideal.ofBits .f32 0x00000000#32 = _; rw [Ideal.ofBits_zero_f32]; rfl⟩) h3) h7) h11

theorem joinB1_real {a2 a6 a10 : FVec Ideal S1x10 .f32} (h2 : AllReal (S := S1x10) a2) (h6 : AllReal (S := S1x10) a6) (h10 : AllReal (S := S1x10) a10) :
    AllReal (S := S1x30) (joinB1 a2 a6 a10) :=
  Cert.Joined.concatenate_allReal _ _ _ _ (by
    intro p hp
    simp only [List.mem_cons, List.not_mem_nil, or_false] at hp
    rcases hp with rfl | rfl | rfl
    exacts [h2, h6, h10])

end Cert.KernelIdeal.Host

end
-- ==== Proof.ReferenceIdealHost.lean ====
/-
  What the host operations before the region leave in the arrays the region stages, as functions of the
  argument arrays: the per-head parameters joined into the fused ones. Nothing here is computed on: each joined
  array is named, read off the host operations' results, and shown to have real entries when the pieces have.
-/
import proofs.«105853_g2000302393245824_pallasbulk_1178_2_alg».proof.Proof.ReferenceIdealFrame
import proofs.«105853_g2000302393245824_pallasbulk_1178_2_alg».proof.Proof.Joined
import proofs.«105853_g2000302393245824_pallasbulk_1178_2_alg».proof.Proof.RealOps
import Idealize.ShloMosaic.Lib.StableHlo.Run

noncomputable section

namespace Cert.ReferenceIdeal.Host

open Cert.ReferenceIdeal Cert.ReferenceIdeal.Gen Cert.ReferenceIdeal.Fr
open Idealize.ShloMosaic Idealize.ShloMosaic.TcCoe Idealize.ShloMosaic.StableHlo Idealize.SL.Sem Cert.Reals

section Defs
variable {F : FTy → Type} [FloatOps F]

/-- The start index (row, column) of one diagonal block, as the two-entry index vector the host builds. -/
def startIdx (r c : BitVec 32) : IVec S2 32 :=
  concatenate S2 0 [⟨S1, (broadcastInDim S1 ![] bcast_S_S1 (constantI S_ 32 r) : IVec S1 32)⟩, ⟨S1, (broadcastInDim S1 ![] bcast_S_S1 (constantI S_ 32 c) : IVec S1 32)⟩] concatenates_S1_S1_S2_d0

/-- The three first-layer weight matrices side by side. -/
def joinW1 (a1 a5 a9 : FVec F S10x10 .f32) : FVec F S10x30 .f32 :=
  concatenate S10x30 1 [⟨S10x10, a1⟩, ⟨S10x10, a5⟩, ⟨S10x10, a9⟩] concatenates_S10x10_S10x10_S10x10_S10x30_d1

/-- The three second-layer weight matrices on the diagonal of a 30 × 48 matrix of zeros: written one after the
    other at (0, 0), (10, 16) and (20, 32). -/
def blockDiag (a3 a7 a11 : FVec F S10x16 .f32) : FVec F S30x48 .f32 :=
  Host.scatter scatter_S30x48_S2_S10x16_01_n_01_0 (fun _ b => b)
    (Host.scatter scatter_S30x48_S2_S10x16_01_n_01_0 (fun _ b => b)
      (Host.scatter scatter_S30x48_S2_S10x16_01_n_01_0 (fun _ b => b)
        (broadcastInDim S30x48 ![] bcast_S_S30x48 (constant S_ .f32 0x00000000#32)) (startIdx 0#32 0#32) a3)
      (startIdx 10#32 16#32) a7)
    (startIdx 20#32 32#32) a11

/-- All six bias rows side by side: the first layer's three, then the second layer's three. -/
def joinBias (a2 a6 a10 : FVec F S1x10 .f32) (a4 a8 a12 : FVec F S1x16 .f32) : FVec F S1x78 .f32 :=
  concatenate S1x78 1 [⟨S1x10, a2⟩, ⟨S1x10, a6⟩, ⟨S1x10, a10⟩, ⟨S1x16, a4⟩, ⟨S1x16, a8⟩, ⟨S1x16, a12⟩] concatenates_S1x10_S1x10_S1x10_S1x16_S1x16_S1x16_S1x78_d1

variable (m : (ℓ : Loc nD τ sig) → Buf (Elt F) ℓ)

theorem V_w1 (c : Dev nD) : V m c main_v0 = joinW1 (m ((c : Thread nD τ).loc main_arg1)) (m ((c : Thread nD τ).loc main_arg5)) (m ((c : Thread nD τ).loc main_arg9)) := by
  unfold joinW1
  dsimp only [V, hostOps0]
  after_results
  rfl

theorem V_w2 (c : Dev nD) : V m c main_v13 = blockDiag (m ((c : Thread nD τ).loc main_arg3)) (m ((c : Thread nD τ).loc main_arg7)) (m ((c : Thread nD τ).loc main_arg11)) := by
  unfold blockDiag startIdx
  dsimp only [V, hostOps0]
  after_results_simp
  rfl

theorem V_bias (c : Dev nD) : V m c main_v14 = joinBias (m ((c : Thread nD τ).loc main_arg2)) (m ((c : Thread nD τ).loc main_arg6)) (m ((c : Thread nD τ).loc main_arg10)) (m ((c : Thread nD τ).loc main_arg4)) (m ((c : Thread nD τ).loc main_arg8)) (m ((c : Thread nD τ).loc main_arg12)) := by
  unfold joinBias
  dsimp only [V, hostOps0]
  after_results
  rfl

end Defs

/-! ## Real pieces give real joined arrays -/

theorem joinW1_real {a1 a5 a9 : FVec Ideal S10x10 .f32} (h1 : AllReal (S := S10x10) a1) (h5 : AllReal (S := S10x10) a5) (h9 : AllReal (S := S10x10) a9) :
    AllReal (S := S10x30) (joinW1 a1 a5 a9) :=
  Cert.Joined.concatenate_allReal _ _ _ _ (by
    intro p hp
    simp only [List.mem_cons, List.not_mem_nil, or_false] at hp
    rcases hp with rfl | rfl | rfl
    exacts [h1, h5, h9])

theorem blockDiag_real {a3 a7 a11 : FVec Ideal S10x16 .f32} (h3 : AllReal (S := S10x16) a3) (h7 : AllReal (S := S10x16) a7) (h11 : AllReal (S := S10x16) a11) :
    AllReal (S := S30x48) (blockDiag a3 a7 a11) :=
  Cert.Joined.scatter_allReal _ _ _ _
    (Cert.Joined.scatter_allReal _ _ _ _
      (Cert.Joined.scatter_allReal _ _ _ _
        (fun _ => ⟨0, by show Ideal.ofBits .f32 0x00000000#32 = _; rw [Ideal.ofBits_zero_f32]; rfl⟩) h3) h7) h11

theorem joinBias_real {a2 a6 a10 : FVec Ideal S1x10 .f32} {a4 a8 a12 : FVec Ideal S1x16 .f32}
    (h2 : AllReal (S := S1x10) a2) (h6 : AllReal (S := S1x10) a6) (h10 : AllReal (S := S1x10) a10)
    (h4 : AllReal (S := S1x16) a4) (h8 : AllReal (S := S1x16) a8) (h12 : AllReal (S := S1x16) a12) :
    AllReal (S := S1x78) (joinBias a2 a6 a10 a4 a8 a12) :=
  Cert.Joined.concatenate_allReal _ _ _ _ (by
    intro p hp
    simp only [List.mem_cons, List.not_mem_nil, or_false] at hp
    rcases hp with rfl | rfl | rfl | rfl | rfl | rfl
    exacts [h2, h6, h10, h4, h8, h12])

end Cert.ReferenceIdeal.Host

end
-- ==== Proof.LibColumnCasts.lean ====
import Idealize.ShloMosaic.Lib.Pipeline.Value
import Idealize.ShloMosaic.Lib.ValueIdx

/-! # Column casts read at an index

A vector of length `a` seen as an `a × 1` column (what a sum along the last axis that keeps the axis produces),
and an `a × 1` column seen as a vector again. Both casts keep the row-major position: entry `i` of the vector is
entry `(i, 0)` of the column. Stated for any extent `a` and any element type, over indices written with
`ix1` / `ix2`, so that they apply to a printed cast by unification. -/

namespace ColumnCasts

open Idealize.ShloMosaic Idealize.ShloMosaic.ValueIdx

variable {α : Type}

/-- A length-`a` vector cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to a length-`a` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end ColumnCasts
-- ==== Proof.LibColumnBroadcast.lean ====
import Idealize.ShloMosaic.Lib.Pipeline.Value
import Idealize.ShloMosaic.Lib.ValueIdx

/-! # A column broadcast along the last axis, read at an index

An `a × 1` column broadcast to `a × b` (what a row statistic kept as a column becomes when it is combined with the
whole row again) repeats entry `(i, 0)` along row `i`. Stated for any extents and any element type, over indices
written with `ix2`, so that it applies to a printed broadcast by unification. -/

namespace ColumnBroadcast

open Idealize.ShloMosaic Idealize.ShloMosaic.ValueIdx

variable {α : Type}

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end ColumnBroadcast
-- ==== Proof.Softmax.lean ====
/-
  The mixture weights' normalisation, two ways. For a 4096 × 16 array `l` of logits the kernel computes, row by
  row, `exp l / Σ exp l`; the reference first subtracts the row's maximum `M`: `exp (l - M) / Σ exp (l - M)`.
  When every logit is a real number the two agree: `M`, the largest of sixteen reals, is real, so
  `exp (a - M) = exp a · exp (-M)` with `exp (-M)` a positive real, which leaves the sum as a common factor and
  cancels in the quotient. (With an infinite logit the difference `l - M` is no longer a shift, and the identity is
  not claimed.) The sum keeps its axis as a column of height 4096 that is broadcast back along the rows; those two
  steps read, at (r, j), the sum of row r.
-/
import Idealize.ShloMosaic.PureOps.Ideal.Laws
import Idealize.ShloMosaic.Lib.ValueIdx
import Idealize.ShloMosaic.Lib.Pipeline.Value
import proofs.«105853_g2000302393245824_pallasbulk_1178_2_alg».proof.Proof.Reals
import proofs.«105853_g2000302393245824_pallasbulk_1178_2_alg».proof.Proof.LibColumnCasts
import proofs.«105853_g2000302393245824_pallasbulk_1178_2_alg».proof.Proof.LibColumnBroadcast

noncomputable section

open scoped BigOperators

namespace Cert.Softmax

open Idealize.ShloMosaic Idealize.ShloMosaic.ValueIdx Cert.Reals

/-- The logits' shape, a vector of row statistics, and the same as a column. -/
abbrev A : Shape := ⟨2, ![4096, 16]⟩
abbrev R1 : Shape := ⟨1, ![4096]⟩
abbrev C : Shape := ⟨2, ![4096, 1]⟩

/-! ## Real arithmetic -/

/-- A finite sum of coercions of reals is the coercion of the sum. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The running maximum, from minus infinity, of finitely many reals is minus infinity or a real. -/
theorem fold_max_bot_or_real {ι : Type} [DecidableEq ι] (s : Finset ι) (a : ι → ℝ) :
    s.fold max (⊥ : EReal) (fun k => ((a k : ℝ) : EReal)) = ⊥ ∨ ∃ R : ℝ, s.fold max (⊥ : EReal) (fun k => ((a k : ℝ) : EReal)) = (R : EReal) := by
  induction s using Finset.induction_on with
  | empty => left; rfl
  | insert b s hb ih =>
    right
    rw [Finset.fold_insert hb]
    rcases ih with h | ⟨R, h⟩
    · exact ⟨a b, by rw [h]; exact max_eq_left bot_le⟩
    · exact ⟨max (a b) R, by rw [h]; exact (EReal.coe_strictMono.monotone.map_max).symm⟩

/-- Over a nonempty index set it is a real. -/
theorem fold_max_real (a : Fin 16 → ℝ) : ∃ R : ℝ, (Finset.univ : Finset (Fin 16)).fold max (⊥ : EReal) (fun k => ((a k : ℝ) : EReal)) = (R : EReal) := by
  rcases fold_max_bot_or_real Finset.univ a with h | h
  · exfalso
    have h0 : ((a 0 : ℝ) : EReal) ≤ (Finset.univ : Finset (Fin 16)).fold max (⊥ : EReal) (fun k => ((a k : ℝ) : EReal)) :=
      (Finset.le_fold_max _).mpr (Or.inr ⟨0, Finset.mem_univ _, le_rfl⟩)
    rw [h] at h0
    exact absurd h0 (not_le.mpr (EReal.bot_lt_coe _))
  · exact h

/-- Shifting every exponent by one real leaves the normalised exponentials unchanged. -/
theorem shift_real (a : Fin 16 → ℝ) (R : ℝ) (j : Fin 16) :
    Ideal.div (Ideal.exp (((a j : ℝ) : EReal) - (R : EReal))) (∑ k : Fin 16, Ideal.exp (((a k : ℝ) : EReal) - (R : EReal)))
      = Ideal.div (Ideal.exp ((a j : ℝ) : EReal)) (∑ k : Fin 16, Ideal.exp ((a k : ℝ) : EReal)) := by
  have e1 : ∀ k, Ideal.exp (((a k : ℝ) : EReal) - (R : EReal)) = ((Real.exp (a k - R) : ℝ) : EReal) := fun k => by
    rw [← EReal.coe_sub]; rfl
  have e2 : ∀ k, Ideal.exp ((a k : ℝ) : EReal) = ((Real.exp (a k) : ℝ) : EReal) := fun k => rfl
  simp only [e1, e2, coe_sum]
  have hpos1 : (0 : ℝ) < ∑ k : Fin 16, Real.exp (a k - R) := Finset.sum_pos (fun k _ => Real.exp_pos _) ⟨0, Finset.mem_univ _⟩
  have hpos2 : (0 : ℝ) < ∑ k : Fin 16, Real.exp (a k) := Finset.sum_pos (fun k _ => Real.exp_pos _) ⟨0, Finset.mem_univ _⟩
  rw [Ideal.div_coe hpos1.ne', Ideal.div_coe hpos2.ne', ← EReal.coe_mul, ← EReal.coe_mul]
  congr 1
  have hs : ∑ k : Fin 16, Real.exp (a k - R) = (∑ k : Fin 16, Real.exp (a k)) * Real.exp (-R) := by
    rw [Finset.sum_mul]; exact Finset.sum_congr rfl fun k _ => by rw [sub_eq_add_neg, Real.exp_add]
  rw [hs, sub_eq_add_neg, Real.exp_add]
  have hc : Real.exp (-R) ≠ 0 := (Real.exp_pos _).ne'
  field_simp

/-- A row of real logits: normalising after the shift by the row's maximum is normalising. -/
theorem row (f : Fin 16 → EReal) (hf : ∀ k, ∃ x : ℝ, f k = (x : EReal)) (j : Fin 16) :
    Ideal.div (Ideal.exp (f j - (Finset.univ : Finset (Fin 16)).fold max (Ideal.ofBits .f32 0xFF800000#32) f))
        (∑ k : Fin 16, Ideal.exp (f k - (Finset.univ : Finset (Fin 16)).fold max (Ideal.ofBits .f32 0xFF800000#32) f))
      = Ideal.div (Ideal.exp (f j)) (∑ k : Fin 16, Ideal.exp (f k)) := by
  obtain ⟨a, rfl⟩ : ∃ a : Fin 16 → ℝ, f = fun k => ((a k : ℝ) : EReal) :=
    ⟨fun k => (hf k).choose, funext fun k => (hf k).choose_spec⟩
  have hb : Ideal.ofBits .f32 0xFF800000#32 = (⊥ : EReal) := by simp [Ideal.ofBits, Ideal.ieee]
  rw [hb]
  obtain ⟨R, hR⟩ := fold_max_real a
  rw [hR]
  exact shift_real a R j

/-! ## The two normalisations of an array of logits, read at an index -/

/-- A vector of row statistics, made a column and broadcast along the rows, reads at (r, j) the statistic of row r. -/
theorem col_apply (v : R1.Idx → EReal) (hc : R1.ShapeCasts C) (hb : C.Broadcasts A) (r : Fin 4096) (j : Fin 16) :
    broadcastTo A (shapeCast C v hc) hb (ix2 r j) = v (ix1 r) :=
  (ColumnBroadcast.broadcastTo_a1_ab_apply (shapeCast C v hc) hb r j).trans (ColumnCasts.shapeCast_a_a1_apply v hc r 0)

/-- The index of row r with column k put back. -/
theorem lift_eq (hr : A.Reduces [1] R1) (r : Fin 4096) (k : Fin 16) : hr.lift (ix1 r) k = ix2 r k := by
  funext a
  match a with
  | ⟨0, _⟩ => rfl
  | ⟨1, _⟩ => rfl

/-- The sum along the rows, at row r. -/
theorem sum_apply (e : FVec Ideal A .f32) (hr : A.Reduces [1] R1) (hφ : FKind.Formats .f32)
    (hacc : (0x00000000#32 : BitVec 32) = FKind.add.neutral .f32 hφ) (r : Fin 4096) :
    multiReduction .add [1] R1 e 0x00000000#32 hr hφ hacc (ix1 r) = ∑ k : Fin 16, e (ix2 r k) :=
  (Ideal.multiReduction_add_single e _ hr hφ hacc (ix1 r)).trans
    (Finset.sum_congr rfl fun k _ => congrArg e (lift_eq hr r k))

/-- The maximum along the rows, at row r: the running maximum from the accumulator's value. -/
theorem max_apply (l : FVec Ideal A .f32) (hr : A.Reduces [1] R1) (hφ : FKind.Formats .f32)
    (hacc : (0xFF800000#32 : BitVec 32) = FKind.maximumf.neutral .f32 hφ) (r : Fin 4096) :
    multiReduction .maximumf [1] R1 l 0xFF800000#32 hr hφ hacc (ix1 r)
      = (Finset.univ : Finset (Fin 16)).fold max (Ideal.ofBits .f32 0xFF800000#32) (fun k => l (ix2 r k)) :=
  (Ideal.multiReduction_maximumf_single l _ hr hφ hacc (ix1 r)).trans
    (congrArg (fun g => (Finset.univ : Finset (Fin 16)).fold max (Ideal.ofBits .f32 0xFF800000#32) g)
      (funext fun k => congrArg l (lift_eq hr r k)))

/-- The kernel's normalisation: exponentials over their row sums. -/
def plain (l : FVec Ideal A .f32) (hr : A.Reduces [1] R1) (hc : R1.ShapeCasts C) (hb : C.Broadcasts A)
    (hφ : FKind.Formats .f32) (h0 : (0x00000000#32 : BitVec 32) = FKind.add.neutral .f32 hφ) : FVec Ideal A .f32 :=
  divf (exp l) (broadcastTo A (shapeCast C (multiReduction .add [1] R1 (exp l) 0x00000000#32 hr hφ h0) hc) hb)

/-- The reference's: the same of the logits less their row maxima. -/
def shifted (l : FVec Ideal A .f32) (hr : A.Reduces [1] R1) (hc : R1.ShapeCasts C) (hb : C.Broadcasts A)
    (hφ : FKind.Formats .f32) (h0 : (0x00000000#32 : BitVec 32) = FKind.add.neutral .f32 hφ)
    (hm : (0xFF800000#32 : BitVec 32) = FKind.maximumf.neutral .f32 hφ) : FVec Ideal A .f32 :=
  divf (exp (subf l (broadcastTo A (shapeCast C (multiReduction .maximumf [1] R1 l 0xFF800000#32 hr hφ hm) hc) hb)))
    (broadcastTo A (shapeCast C (multiReduction .add [1] R1
      (exp (subf l (broadcastTo A (shapeCast C (multiReduction .maximumf [1] R1 l 0xFF800000#32 hr hφ hm) hc) hb))) 0x00000000#32 hr hφ h0) hc) hb)

/-- On real logits the two are one array. -/
theorem shifted_eq_plain (l : FVec Ideal A .f32) (hl : AllReal (S := A) l) (hr : A.Reduces [1] R1) (hc : R1.ShapeCasts C) (hb : C.Broadcasts A)
    (hφ : FKind.Formats .f32) (h0 : (0x00000000#32 : BitVec 32) = FKind.add.neutral .f32 hφ)
    (hm : (0xFF800000#32 : BitVec 32) = FKind.maximumf.neutral .f32 hφ) :
    shifted l hr hc hb hφ h0 hm = plain l hr hc hb hφ h0 := by
  funext i
  obtain ⟨r, j, rfl⟩ : ∃ (r : Fin 4096) (j : Fin 16), i = ix2 r j := ⟨i 0, i 1, eq_ix2 i⟩
  unfold shifted plain
  rw [divf_apply, divf_apply, col_apply, col_apply, sum_apply, sum_apply]
  have hsub : ∀ k : Fin 16, (exp (subf l (broadcastTo A (shapeCast C (multiReduction .maximumf [1] R1 l 0xFF800000#32 hr hφ hm) hc) hb))) (ix2 r k)
      = Ideal.exp (l (ix2 r k) - (Finset.univ : Finset (Fin 16)).fold max (Ideal.ofBits .f32 0xFF800000#32) (fun k' => l (ix2 r k'))) := fun k => by
    show Ideal.exp ((subf l _) (ix2 r k)) = _
    rw [subf_apply, col_apply, max_apply]
  rw [hsub j]
  rw [Finset.sum_congr rfl fun k _ => hsub k]
  exact row (fun k => l (ix2 r k)) (fun k => hl (ix2 r k)) j

end Cert.Softmax

end
-- ==== Proof.Bridge.lean ====
/-
  The two programs' bodies compute the same three blocks. Both form, from a block of rows `x`, the joined
  first-layer weights `w1`, first-layer biases, the block-diagonal second-layer weights `w2` and second-layer
  biases, the pre-activations `z = max (x · w1 + b1) 0 · w2 + b2` (a 4096 × 48 array) and store its first sixteen
  columns, its next sixteen, and the normalised exponentials of its last sixteen. They differ in three places,
  none of which changes a value over the extended reals: the reference asks the matrix unit for full precision
  (a matter of rounding only); it receives its six bias rows as ONE row of 78 columns and cuts `b1` and `b2` out of
  it at columns 0 and 30; and it subtracts each row's maximum before exponentiating, which cancels in the
  quotient once the logits are real numbers — as they are when the rows, weights and biases are.
-/
import proofs.«105853_g2000302393245824_pallasbulk_1178_2_alg».proof.Proof.Gen.KernelIdeal.Skeleton
import proofs.«105853_g2000302393245824_pallasbulk_1178_2_alg».proof.Proof.Gen.ReferenceIdeal.Skeleton
import proofs.«105853_g2000302393245824_pallasbulk_1178_2_alg».proof.Proof.RealOps
import proofs.«105853_g2000302393245824_pallasbulk_1178_2_alg».proof.Proof.Softmax
import Idealize.ShloMosaic.Lib.Pipeline.Value

noncomputable section

namespace Cert.Bridge

open Idealize.ShloMosaic Idealize.ShloMosaic.ValueIdx Cert.Reals

variable [Cert.KernelIdeal.Facts] [Cert.ReferenceIdeal.Facts]

/-- The pre-activations agree: the kernel's, fed the two cuts of the reference's bias row, are the reference's. -/
theorem pay1_eq (xb : Vec Ideal Cert.KernelIdeal.S4096x10 .f32) (w1 : Vec Ideal Cert.KernelIdeal.S10x30 .f32) (w2 : Vec Ideal Cert.KernelIdeal.S30x48 .f32)
    (bias : Vec Ideal Cert.ReferenceIdeal.S1x78 .f32) (h0 : Cert.ReferenceIdeal.S1x78.Slices ![0, 0] Cert.KernelIdeal.S1x30) (h30 : Cert.ReferenceIdeal.S1x78.Slices ![0, 30] Cert.KernelIdeal.S1x48) :
    Cert.KernelIdeal.Gen.k0_pay1 (F := Ideal) xb w1 (extractStridedSlice Cert.KernelIdeal.S1x30 ![0, 0] bias h0) w2 (extractStridedSlice Cert.KernelIdeal.S1x48 ![0, 30] bias h30)
      = Cert.ReferenceIdeal.Gen.k0_pay1 (F := Ideal) xb bias w1 w2 := by
  unfold Cert.KernelIdeal.Gen.k0_pay1 Cert.ReferenceIdeal.Gen.k0_pay1
  simp only [shapeCast_self]
  rfl

/-- So do the first sixteen columns, -/
theorem pay2_eq (xb : Vec Ideal Cert.KernelIdeal.S4096x10 .f32) (w1 : Vec Ideal Cert.KernelIdeal.S10x30 .f32) (w2 : Vec Ideal Cert.KernelIdeal.S30x48 .f32)
    (bias : Vec Ideal Cert.ReferenceIdeal.S1x78 .f32) (h0 : Cert.ReferenceIdeal.S1x78.Slices ![0, 0] Cert.KernelIdeal.S1x30) (h30 : Cert.ReferenceIdeal.S1x78.Slices ![0, 30] Cert.KernelIdeal.S1x48) :
    Cert.KernelIdeal.Gen.k0_pay2 (F := Ideal) xb w1 (extractStridedSlice Cert.KernelIdeal.S1x30 ![0, 0] bias h0) w2 (extractStridedSlice Cert.KernelIdeal.S1x48 ![0, 30] bias h30)
      = Cert.ReferenceIdeal.Gen.k0_pay2 (F := Ideal) xb bias w1 w2 := by
  unfold Cert.KernelIdeal.Gen.k0_pay2 Cert.ReferenceIdeal.Gen.k0_pay2
  rw [pay1_eq]

/-- and the next sixteen. -/
theorem pay3_eq (xb : Vec Ideal Cert.KernelIdeal.S4096x10 .f32) (w1 : Vec Ideal Cert.KernelIdeal.S10x30 .f32) (w2 : Vec Ideal Cert.KernelIdeal.S30x48 .f32)
    (bias : Vec Ideal Cert.ReferenceIdeal.S1x78 .f32) (h0 : Cert.ReferenceIdeal.S1x78.Slices ![0, 0] Cert.KernelIdeal.S1x30) (h30 : Cert.ReferenceIdeal.S1x78.Slices ![0, 30] Cert.KernelIdeal.S1x48) :
    Cert.KernelIdeal.Gen.k0_pay3 (F := Ideal) xb w1 (extractStridedSlice Cert.KernelIdeal.S1x30 ![0, 0] bias h0) w2 (extractStridedSlice Cert.KernelIdeal.S1x48 ![0, 30] bias h30)
      = Cert.ReferenceIdeal.Gen.k0_pay3 (F := Ideal) xb bias w1 w2 := by
  unfold Cert.KernelIdeal.Gen.k0_pay3 Cert.ReferenceIdeal.Gen.k0_pay3
  rw [pay1_eq]

/-- Real rows, weights and biases give real pre-activations: two matrix products into zero, two added bias rows
    and a maximum with zero. -/
theorem allReal_pay1 (xb : Vec Ideal Cert.ReferenceIdeal.S4096x10 .f32) (bias : Vec Ideal Cert.ReferenceIdeal.S1x78 .f32) (w1 : Vec Ideal Cert.ReferenceIdeal.S10x30 .f32)
    (w2 : Vec Ideal Cert.ReferenceIdeal.S30x48 .f32) (hx : AllReal (S := Cert.ReferenceIdeal.S4096x10) xb) (hb : AllReal (S := Cert.ReferenceIdeal.S1x78) bias)
    (hw1 : AllReal (S := Cert.ReferenceIdeal.S10x30) w1) (hw2 : AllReal (S := Cert.ReferenceIdeal.S30x48) w2) :
    AllReal (S := Cert.ReferenceIdeal.S4096x48) (Cert.ReferenceIdeal.Gen.k0_pay1 (F := Ideal) xb bias w1 w2) := by
  unfold Cert.ReferenceIdeal.Gen.k0_pay1
  exact AllReal.addf
    (AllReal.matmul_zero _ _
      (AllReal.maximumf
        (AllReal.addf (AllReal.matmul_zero _ _ hx (hw1.shapeCast _)) (((hb.shapeCast _).slice _ _).broadcastTo _))
        allReal_zero_splat)
      (hw2.shapeCast _))
    (((hb.shapeCast _).slice _ _).broadcastTo _)

/-- The mixture weights agree when everything read is real: the reference's shift by the row maximum cancels. -/
theorem pay4_eq (xb : Vec Ideal Cert.KernelIdeal.S4096x10 .f32) (w1 : Vec Ideal Cert.KernelIdeal.S10x30 .f32) (w2 : Vec Ideal Cert.KernelIdeal.S30x48 .f32)
    (bias : Vec Ideal Cert.ReferenceIdeal.S1x78 .f32) (h0 : Cert.ReferenceIdeal.S1x78.Slices ![0, 0] Cert.KernelIdeal.S1x30) (h30 : Cert.ReferenceIdeal.S1x78.Slices ![0, 30] Cert.KernelIdeal.S1x48)
    (hx : AllReal (S := Cert.ReferenceIdeal.S4096x10) xb) (hb : AllReal (S := Cert.ReferenceIdeal.S1x78) bias)
    (hw1 : AllReal (S := Cert.ReferenceIdeal.S10x30) w1) (hw2 : AllReal (S := Cert.ReferenceIdeal.S30x48) w2) :
    Cert.KernelIdeal.Gen.k0_pay4 (F := Ideal) xb w1 (extractStridedSlice Cert.KernelIdeal.S1x30 ![0, 0] bias h0) w2 (extractStridedSlice Cert.KernelIdeal.S1x48 ![0, 30] bias h30)
      = Cert.ReferenceIdeal.Gen.k0_pay4 (F := Ideal) xb bias w1 w2 := by
  have hz := allReal_pay1 xb bias w1 w2 hx hb hw1 hw2
  unfold Cert.KernelIdeal.Gen.k0_pay4 Cert.ReferenceIdeal.Gen.k0_pay4
  rw [pay1_eq]
  exact (Cert.Softmax.shifted_eq_plain _ (hz.slice _ _) _ _ _ _ _ _).symm

end Cert.Bridge

end
-- ==== Proof.Results.lean ====
/-
  The kernel's three result arrays are the reference's, for argument arrays with real entries. Each result array
  is assembled block by block from the body's payload of a block of rows and the joined parameters; the joined
  weights are the same arrays in both programs, the kernel's two bias rows are the two cuts of the reference's one
  row of six, and on every block the payloads agree (for the mixture weights because everything read is real).
-/
import proofs.«105853_g2000302393245824_pallasbulk_1178_2_alg».proof.Proof.KernelIdealValue
import proofs.«105853_g2000302393245824_pallasbulk_1178_2_alg».proof.Proof.ReferenceIdealValue
import proofs.«105853_g2000302393245824_pallasbulk_1178_2_alg».proof.Proof.KernelIdealHost
import proofs.«105853_g2000302393245824_pallasbulk_1178_2_alg».proof.Proof.ReferenceIdealHost
import proofs.«105853_g2000302393245824_pallasbulk_1178_2_alg».proof.Proof.Bridge

noncomputable section

namespace Cert.Results

open Idealize.ShloMosaic Cert.Reals

/-- The kernel's first-layer bias row is the reference's row of six cut at column 0, -/
theorem b1_cut (a1 : FVec Ideal Cert.KernelIdeal.S10x10 .f32) (a2 : FVec Ideal Cert.KernelIdeal.S1x10 .f32) (a3 : FVec Ideal Cert.KernelIdeal.S10x16 .f32) (a4 : FVec Ideal Cert.KernelIdeal.S1x16 .f32)
    (a5 : FVec Ideal Cert.KernelIdeal.S10x10 .f32) (a6 : FVec Ideal Cert.KernelIdeal.S1x10 .f32) (a7 : FVec Ideal Cert.KernelIdeal.S10x16 .f32) (a8 : FVec Ideal Cert.KernelIdeal.S1x16 .f32)
    (a9 : FVec Ideal Cert.KernelIdeal.S10x10 .f32) (a10 : FVec Ideal Cert.KernelIdeal.S1x10 .f32) (a11 : FVec Ideal Cert.KernelIdeal.S10x16 .f32) (a12 : FVec Ideal Cert.KernelIdeal.S1x16 .f32) :
    Cert.KernelIdeal.Host.joinB1 a2 a6 a10 = extractStridedSlice Cert.KernelIdeal.S1x30 ![0, 0] (Cert.ReferenceIdeal.Host.joinBias a2 a6 a10 a4 a8 a12) (by decide) := by
  unfold Cert.KernelIdeal.Host.joinB1 Cert.ReferenceIdeal.Host.joinBias
  exact (Cert.Joined.slice_left a2 a6 a10 a4 a8 a12 _ _ _).symm

/-- and its second-layer bias row the cut at column 30. -/
theorem b2_cut (a1 : FVec Ideal Cert.KernelIdeal.S10x10 .f32) (a2 : FVec Ideal Cert.KernelIdeal.S1x10 .f32) (a3 : FVec Ideal Cert.KernelIdeal.S10x16 .f32) (a4 : FVec Ideal Cert.KernelIdeal.S1x16 .f32)
    (a5 : FVec Ideal Cert.KernelIdeal.S10x10 .f32) (a6 : FVec Ideal Cert.KernelIdeal.S1x10 .f32) (a7 : FVec Ideal Cert.KernelIdeal.S10x16 .f32) (a8 : FVec Ideal Cert.KernelIdeal.S1x16 .f32)
    (a9 : FVec Ideal Cert.KernelIdeal.S10x10 .f32) (a10 : FVec Ideal Cert.KernelIdeal.S1x10 .f32) (a11 : FVec Ideal Cert.KernelIdeal.S10x16 .f32) (a12 : FVec Ideal Cert.KernelIdeal.S1x16 .f32) :
    Cert.KernelIdeal.Host.joinB2 a4 a8 a12 = extractStridedSlice Cert.KernelIdeal.S1x48 ![0, 30] (Cert.ReferenceIdeal.Host.joinBias a2 a6 a10 a4 a8 a12) (by decide) := by
  unfold Cert.KernelIdeal.Host.joinB2 Cert.ReferenceIdeal.Host.joinBias
  exact (Cert.Joined.slice_right a2 a6 a10 a4 a8 a12 _ _ _).symm

/-- The joined weights are the same arrays in both programs. -/
theorem w1_same (a1 a5 a9 : FVec Ideal Cert.KernelIdeal.S10x10 .f32) : Cert.KernelIdeal.Host.joinW1 a1 a5 a9 = Cert.ReferenceIdeal.Host.joinW1 a1 a5 a9 := rfl
theorem w2_same (a3 a7 a11 : FVec Ideal Cert.KernelIdeal.S10x16 .f32) : Cert.KernelIdeal.Host.blockDiag a3 a7 a11 = Cert.ReferenceIdeal.Host.blockDiag a3 a7 a11 := rfl

/-- The first result: the first sixteen columns of the pre-activations. -/
theorem first_eq (X : FVec Ideal Cert.KernelIdeal.S524288x10 .f32) (a1 : FVec Ideal Cert.KernelIdeal.S10x10 .f32) (a2 : FVec Ideal Cert.KernelIdeal.S1x10 .f32) (a3 : FVec Ideal Cert.KernelIdeal.S10x16 .f32) (a4 : FVec Ideal Cert.KernelIdeal.S1x16 .f32)
    (a5 : FVec Ideal Cert.KernelIdeal.S10x10 .f32) (a6 : FVec Ideal Cert.KernelIdeal.S1x10 .f32) (a7 : FVec Ideal Cert.KernelIdeal.S10x16 .f32) (a8 : FVec Ideal Cert.KernelIdeal.S1x16 .f32)
    (a9 : FVec Ideal Cert.KernelIdeal.S10x10 .f32) (a10 : FVec Ideal Cert.KernelIdeal.S1x10 .f32) (a11 : FVec Ideal Cert.KernelIdeal.S10x16 .f32) (a12 : FVec Ideal Cert.KernelIdeal.S1x16 .f32) :
    Cert.KernelIdeal.Val.G5 (F := Ideal) X (Cert.KernelIdeal.Host.joinW1 a1 a5 a9) (Cert.KernelIdeal.Host.joinB1 a2 a6 a10) (Cert.KernelIdeal.Host.blockDiag a3 a7 a11) (Cert.KernelIdeal.Host.joinB2 a4 a8 a12) = Cert.ReferenceIdeal.Val.G4 (F := Ideal) X (Cert.ReferenceIdeal.Host.joinBias a2 a6 a10 a4 a8 a12) (Cert.ReferenceIdeal.Host.joinW1 a1 a5 a9) (Cert.ReferenceIdeal.Host.blockDiag a3 a7 a11) := by
  unfold Cert.KernelIdeal.Val.G5 Cert.ReferenceIdeal.Val.G4
  rw [b1_cut a1 a2 a3 a4 a5 a6 a7 a8 a9 a10 a11 a12, b2_cut a1 a2 a3 a4 a5 a6 a7 a8 a9 a10 a11 a12, w1_same, w2_same]
  exact Cert.Rows.ofBlocks_congr _ _ _ fun q => Cert.Bridge.pay2_eq _ _ _ _ _ _

/-- The second result: the next sixteen columns. -/
theorem second_eq (X : FVec Ideal Cert.KernelIdeal.S524288x10 .f32) (a1 : FVec Ideal Cert.KernelIdeal.S10x10 .f32) (a2 : FVec Ideal Cert.KernelIdeal.S1x10 .f32) (a3 : FVec Ideal Cert.KernelIdeal.S10x16 .f32) (a4 : FVec Ideal Cert.KernelIdeal.S1x16 .f32)
    (a5 : FVec Ideal Cert.KernelIdeal.S10x10 .f32) (a6 : FVec Ideal Cert.KernelIdeal.S1x10 .f32) (a7 : FVec Ideal Cert.KernelIdeal.S10x16 .f32) (a8 : FVec Ideal Cert.KernelIdeal.S1x16 .f32)
    (a9 : FVec Ideal Cert.KernelIdeal.S10x10 .f32) (a10 : FVec Ideal Cert.KernelIdeal.S1x10 .f32) (a11 : FVec Ideal Cert.KernelIdeal.S10x16 .f32) (a12 : FVec Ideal Cert.KernelIdeal.S1x16 .f32) :
    Cert.KernelIdeal.Val.G6 (F := Ideal) X (Cert.KernelIdeal.Host.joinW1 a1 a5 a9) (Cert.KernelIdeal.Host.joinB1 a2 a6 a10) (Cert.KernelIdeal.Host.blockDiag a3 a7 a11) (Cert.KernelIdeal.Host.joinB2 a4 a8 a12) = Cert.ReferenceIdeal.Val.G5 (F := Ideal) X (Cert.ReferenceIdeal.Host.joinBias a2 a6 a10 a4 a8 a12) (Cert.ReferenceIdeal.Host.joinW1 a1 a5 a9) (Cert.ReferenceIdeal.Host.blockDiag a3 a7 a11) := by
  unfold Cert.KernelIdeal.Val.G6 Cert.ReferenceIdeal.Val.G5
  rw [b1_cut a1 a2 a3 a4 a5 a6 a7 a8 a9 a10 a11 a12, b2_cut a1 a2 a3 a4 a5 a6 a7 a8 a9 a10 a11 a12, w1_same, w2_same]
  exact Cert.Rows.ofBlocks_congr _ _ _ fun q => Cert.Bridge.pay3_eq _ _ _ _ _ _

/-- The third result, the mixture weights, for real arguments. -/
theorem third_eq (X : FVec Ideal Cert.KernelIdeal.S524288x10 .f32) (a1 : FVec Ideal Cert.KernelIdeal.S10x10 .f32) (a2 : FVec Ideal Cert.KernelIdeal.S1x10 .f32) (a3 : FVec Ideal Cert.KernelIdeal.S10x16 .f32) (a4 : FVec Ideal Cert.KernelIdeal.S1x16 .f32)
    (a5 : FVec Ideal Cert.KernelIdeal.S10x10 .f32) (a6 : FVec Ideal Cert.KernelIdeal.S1x10 .f32) (a7 : FVec Ideal Cert.KernelIdeal.S10x16 .f32) (a8 : FVec Ideal Cert.KernelIdeal.S1x16 .f32)
    (a9 : FVec Ideal Cert.KernelIdeal.S10x10 .f32) (a10 : FVec Ideal Cert.KernelIdeal.S1x10 .f32) (a11 : FVec Ideal Cert.KernelIdeal.S10x16 .f32) (a12 : FVec Ideal Cert.KernelIdeal.S1x16 .f32)
    (hX : AllReal (S := Cert.KernelIdeal.S524288x10) X)
    (h1 : AllReal (S := Cert.KernelIdeal.S10x10) a1) (h2 : AllReal (S := Cert.KernelIdeal.S1x10) a2) (h3 : AllReal (S := Cert.KernelIdeal.S10x16) a3) (h4 : AllReal (S := Cert.KernelIdeal.S1x16) a4)
    (h5 : AllReal (S := Cert.KernelIdeal.S10x10) a5) (h6 : AllReal (S := Cert.KernelIdeal.S1x10) a6) (h7 : AllReal (S := Cert.KernelIdeal.S10x16) a7) (h8 : AllReal (S := Cert.KernelIdeal.S1x16) a8)
    (h9 : AllReal (S := Cert.KernelIdeal.S10x10) a9) (h10 : AllReal (S := Cert.KernelIdeal.S1x10) a10) (h11 : AllReal (S := Cert.KernelIdeal.S10x16) a11) (h12 : AllReal (S := Cert.KernelIdeal.S1x16) a12) :
    Cert.KernelIdeal.Val.G7 (F := Ideal) X (Cert.KernelIdeal.Host.joinW1 a1 a5 a9) (Cert.KernelIdeal.Host.joinB1 a2 a6 a10) (Cert.KernelIdeal.Host.blockDiag a3 a7 a11) (Cert.KernelIdeal.Host.joinB2 a4 a8 a12) = Cert.ReferenceIdeal.Val.G6 (F := Ideal) X (Cert.ReferenceIdeal.Host.joinBias a2 a6 a10 a4 a8 a12) (Cert.ReferenceIdeal.Host.joinW1 a1 a5 a9) (Cert.ReferenceIdeal.Host.blockDiag a3 a7 a11) := by
  unfold Cert.KernelIdeal.Val.G7 Cert.ReferenceIdeal.Val.G6
  rw [b1_cut a1 a2 a3 a4 a5 a6 a7 a8 a9 a10 a11 a12, b2_cut a1 a2 a3 a4 a5 a6 a7 a8 a9 a10 a11 a12, w1_same, w2_same]
  exact Cert.Rows.ofBlocks_congr _ _ _ fun q => Cert.Bridge.pay4_eq _ _ _ _ _ _
    (fun y => hX _) (Cert.ReferenceIdeal.Host.joinBias_real h2 h6 h10 h4 h8 h12) (Cert.ReferenceIdeal.Host.joinW1_real h1 h5 h9) (Cert.ReferenceIdeal.Host.blockDiag_real h3 h7 h11)

/-! ## The same, for a reference run from arrays that are only EQUAL to the kernel's -/

theorem first_agree (X : FVec Ideal Cert.KernelIdeal.S524288x10 .f32) (a1 : FVec Ideal Cert.KernelIdeal.S10x10 .f32) (a2 : FVec Ideal Cert.KernelIdeal.S1x10 .f32) (a3 : FVec Ideal Cert.KernelIdeal.S10x16 .f32) (a4 : FVec Ideal Cert.KernelIdeal.S1x16 .f32)
    (a5 : FVec Ideal Cert.KernelIdeal.S10x10 .f32) (a6 : FVec Ideal Cert.KernelIdeal.S1x10 .f32) (a7 : FVec Ideal Cert.KernelIdeal.S10x16 .f32) (a8 : FVec Ideal Cert.KernelIdeal.S1x16 .f32)
    (a9 : FVec Ideal Cert.KernelIdeal.S10x10 .f32) (a10 : FVec Ideal Cert.KernelIdeal.S1x10 .f32) (a11 : FVec Ideal Cert.KernelIdeal.S10x16 .f32) (a12 : FVec Ideal Cert.KernelIdeal.S1x16 .f32)
    (Y : FVec Ideal Cert.ReferenceIdeal.S524288x10 .f32) (b1 : FVec Ideal Cert.ReferenceIdeal.S10x10 .f32) (b2 : FVec Ideal Cert.ReferenceIdeal.S1x10 .f32) (b3 : FVec Ideal Cert.ReferenceIdeal.S10x16 .f32) (b4 : FVec Ideal Cert.ReferenceIdeal.S1x16 .f32)
    (b5 : FVec Ideal Cert.ReferenceIdeal.S10x10 .f32) (b6 : FVec Ideal Cert.ReferenceIdeal.S1x10 .f32) (b7 : FVec Ideal Cert.ReferenceIdeal.S10x16 .f32) (b8 : FVec Ideal Cert.ReferenceIdeal.S1x16 .f32)
    (b9 : FVec Ideal Cert.ReferenceIdeal.S10x10 .f32) (b10 : FVec Ideal Cert.ReferenceIdeal.S1x10 .f32) (b11 : FVec Ideal Cert.ReferenceIdeal.S10x16 .f32) (b12 : FVec Ideal Cert.ReferenceIdeal.S1x16 .f32)
    (e0 : Y = X) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12) :
    Cert.ReferenceIdeal.Val.G4 (F := Ideal) Y (Cert.ReferenceIdeal.Host.joinBias b2 b6 b10 b4 b8 b12) (Cert.ReferenceIdeal.Host.joinW1 b1 b5 b9) (Cert.ReferenceIdeal.Host.blockDiag b3 b7 b11) = Cert.KernelIdeal.Val.G5 (F := Ideal) X (Cert.KernelIdeal.Host.joinW1 a1 a5 a9) (Cert.KernelIdeal.Host.joinB1 a2 a6 a10) (Cert.KernelIdeal.Host.blockDiag a3 a7 a11) (Cert.KernelIdeal.Host.joinB2 a4 a8 a12) := by
  subst e0 e1 e2 e3 e4 e5 e6 e7 e8 e9 e10 e11 e12
  exact (first_eq Y b1 b2 b3 b4 b5 b6 b7 b8 b9 b10 b11 b12).symm

theorem second_agree (X : FVec Ideal Cert.KernelIdeal.S524288x10 .f32) (a1 : FVec Ideal Cert.KernelIdeal.S10x10 .f32) (a2 : FVec Ideal Cert.KernelIdeal.S1x10 .f32) (a3 : FVec Ideal Cert.KernelIdeal.S10x16 .f32) (a4 : FVec Ideal Cert.KernelIdeal.S1x16 .f32)
    (a5 : FVec Ideal Cert.KernelIdeal.S10x10 .f32) (a6 : FVec Ideal Cert.KernelIdeal.S1x10 .f32) (a7 : FVec Ideal Cert.KernelIdeal.S10x16 .f32) (a8 : FVec Ideal Cert.KernelIdeal.S1x16 .f32)
    (a9 : FVec Ideal Cert.KernelIdeal.S10x10 .f32) (a10 : FVec Ideal Cert.KernelIdeal.S1x10 .f32) (a11 : FVec Ideal Cert.KernelIdeal.S10x16 .f32) (a12 : FVec Ideal Cert.KernelIdeal.S1x16 .f32)
    (Y : FVec Ideal Cert.ReferenceIdeal.S524288x10 .f32) (b1 : FVec Ideal Cert.ReferenceIdeal.S10x10 .f32) (b2 : FVec Ideal Cert.ReferenceIdeal.S1x10 .f32) (b3 : FVec Ideal Cert.ReferenceIdeal.S10x16 .f32) (b4 : FVec Ideal Cert.ReferenceIdeal.S1x16 .f32)
    (b5 : FVec Ideal Cert.ReferenceIdeal.S10x10 .f32) (b6 : FVec Ideal Cert.ReferenceIdeal.S1x10 .f32) (b7 : FVec Ideal Cert.ReferenceIdeal.S10x16 .f32) (b8 : FVec Ideal Cert.ReferenceIdeal.S1x16 .f32)
    (b9 : FVec Ideal Cert.ReferenceIdeal.S10x10 .f32) (b10 : FVec Ideal Cert.ReferenceIdeal.S1x10 .f32) (b11 : FVec Ideal Cert.ReferenceIdeal.S10x16 .f32) (b12 : FVec Ideal Cert.ReferenceIdeal.S1x16 .f32)
    (e0 : Y = X) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12) :
    Cert.ReferenceIdeal.Val.G5 (F := Ideal) Y (Cert.ReferenceIdeal.Host.joinBias b2 b6 b10 b4 b8 b12) (Cert.ReferenceIdeal.Host.joinW1 b1 b5 b9) (Cert.ReferenceIdeal.Host.blockDiag b3 b7 b11) = Cert.KernelIdeal.Val.G6 (F := Ideal) X (Cert.KernelIdeal.Host.joinW1 a1 a5 a9) (Cert.KernelIdeal.Host.joinB1 a2 a6 a10) (Cert.KernelIdeal.Host.blockDiag a3 a7 a11) (Cert.KernelIdeal.Host.joinB2 a4 a8 a12) := by
  subst e0 e1 e2 e3 e4 e5 e6 e7 e8 e9 e10 e11 e12
  exact (second_eq Y b1 b2 b3 b4 b5 b6 b7 b8 b9 b10 b11 b12).symm

theorem third_agree (X : FVec Ideal Cert.KernelIdeal.S524288x10 .f32) (a1 : FVec Ideal Cert.KernelIdeal.S10x10 .f32) (a2 : FVec Ideal Cert.KernelIdeal.S1x10 .f32) (a3 : FVec Ideal Cert.KernelIdeal.S10x16 .f32) (a4 : FVec Ideal Cert.KernelIdeal.S1x16 .f32)
    (a5 : FVec Ideal Cert.KernelIdeal.S10x10 .f32) (a6 : FVec Ideal Cert.KernelIdeal.S1x10 .f32) (a7 : FVec Ideal Cert.KernelIdeal.S10x16 .f32) (a8 : FVec Ideal Cert.KernelIdeal.S1x16 .f32)
    (a9 : FVec Ideal Cert.KernelIdeal.S10x10 .f32) (a10 : FVec Ideal Cert.KernelIdeal.S1x10 .f32) (a11 : FVec Ideal Cert.KernelIdeal.S10x16 .f32) (a12 : FVec Ideal Cert.KernelIdeal.S1x16 .f32)
    (Y : FVec Ideal Cert.ReferenceIdeal.S524288x10 .f32) (b1 : FVec Ideal Cert.ReferenceIdeal.S10x10 .f32) (b2 : FVec Ideal Cert.ReferenceIdeal.S1x10 .f32) (b3 : FVec Ideal Cert.ReferenceIdeal.S10x16 .f32) (b4 : FVec Ideal Cert.ReferenceIdeal.S1x16 .f32)
    (b5 : FVec Ideal Cert.ReferenceIdeal.S10x10 .f32) (b6 : FVec Ideal Cert.ReferenceIdeal.S1x10 .f32) (b7 : FVec Ideal Cert.ReferenceIdeal.S10x16 .f32) (b8 : FVec Ideal Cert.ReferenceIdeal.S1x16 .f32)
    (b9 : FVec Ideal Cert.ReferenceIdeal.S10x10 .f32) (b10 : FVec Ideal Cert.ReferenceIdeal.S1x10 .f32) (b11 : FVec Ideal Cert.ReferenceIdeal.S10x16 .f32) (b12 : FVec Ideal Cert.ReferenceIdeal.S1x16 .f32)
    (e0 : Y = X) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12)
    (hX : AllReal (S := Cert.KernelIdeal.S524288x10) X)
    (h1 : AllReal (S := Cert.KernelIdeal.S10x10) a1) (h2 : AllReal (S := Cert.KernelIdeal.S1x10) a2) (h3 : AllReal (S := Cert.KernelIdeal.S10x16) a3) (h4 : AllReal (S := Cert.KernelIdeal.S1x16) a4)
    (h5 : AllReal (S := Cert.KernelIdeal.S10x10) a5) (h6 : AllReal (S := Cert.KernelIdeal.S1x10) a6) (h7 : AllReal (S := Cert.KernelIdeal.S10x16) a7) (h8 : AllReal (S := Cert.KernelIdeal.S1x16) a8)
    (h9 : AllReal (S := Cert.KernelIdeal.S10x10) a9) (h10 : AllReal (S := Cert.KernelIdeal.S1x10) a10) (h11 : AllReal (S := Cert.KernelIdeal.S10x16) a11) (h12 : AllReal (S := Cert.KernelIdeal.S1x16) a12) :
    Cert.ReferenceIdeal.Val.G6 (F := Ideal) Y (Cert.ReferenceIdeal.Host.joinBias b2 b6 b10 b4 b8 b12) (Cert.ReferenceIdeal.Host.joinW1 b1 b5 b9) (Cert.ReferenceIdeal.Host.blockDiag b3 b7 b11) = Cert.KernelIdeal.Val.G7 (F := Ideal) X (Cert.KernelIdeal.Host.joinW1 a1 a5 a9) (Cert.KernelIdeal.Host.joinB1 a2 a6 a10) (Cert.KernelIdeal.Host.blockDiag a3 a7 a11) (Cert.KernelIdeal.Host.joinB2 a4 a8 a12) := by
  subst e0 e1 e2 e3 e4 e5 e6 e7 e8 e9 e10 e11 e12
  exact (third_eq Y b1 b2 b3 b4 b5 b6 b7 b8 b9 b10 b11 b12 hX h1 h2 h3 h4 h5 h6 h7 h8 h9 h10 h11 h12).symm

end Cert.Results

end
-- ==== Proof.FiniteArgs.lean ====
/-
  The certificate's precondition, read back. The precondition is the conjunction, over the thirteen argument arrays, of
  "every entry x of the array satisfies |x| < +∞", each conjunct computed as a reduction by "and" of the entrywise comparisons.
  Over the extended reals |x| = max x (-x), and max x (-x) < ⊤ rules out both x = ⊤ and x = ⊥, so every entry of every
  argument is a real number.
-/
import proofs.«105853_g2000302393245824_pallasbulk_1178_2_alg».proof.Pre_finite_inputs
import proofs.«105853_g2000302393245824_pallasbulk_1178_2_alg».proof.Proof.Reals
import Idealize.ShloMosaic.Lib.ReduceAll

noncomputable section

namespace Cert.FiniteArgs

open Idealize.ShloMosaic Cert.Pre_finite_inputs Cert.Reals

/-- The rank-0 shape has exactly one index (the empty tuple of coordinates). -/
instance : Subsingleton S_.Idx := ⟨fun a b => funext fun d => d.elim0⟩

/-- The single-precision pattern with all exponent bits set, sign clear and fraction zero denotes +∞. -/
theorem inf_pattern : Ideal.ofBits .f32 0x7F800000#32 = (⊤ : EReal) := by
  simp [Ideal.ofBits, Ideal.ieee]

/-- A one-bit word made from a truth value is 1 exactly when the truth value is true. -/
theorem ofBool_eq_one {b : Bool} : BitVec.ofBool b = 1#1 ↔ b = true := by cases b <;> decide

/-- An extended real whose absolute value max x (-x) is below +∞ is a real number: x = ⊤ gives max ⊤ ⊥ = ⊤ and x = ⊥ gives
    max ⊥ ⊤ = ⊤, neither of which is strictly below ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One conjunct of the precondition, for an array of any shape: if the reduction by "and" over all axes of the entrywise
    comparisons |a i| < c, with c the splat of the +∞ pattern, is 1, then every comparison is 1, so every |a i| < ⊤ and every
    entry is real. The index i stays a variable throughout: nothing is enumerated. -/
theorem allReal_of_all {T : Shape} {axes : List (Fin T.rank)} {dims : Fin S_.rank → Fin T.rank}
    (hb : S_.BroadcastsInDim T dims) (hr : T.ReducesTo axes S_) (hu : 0 < S_.numel)
    (a : FVec Ideal T .f32) (init : IVec S_ 1) (j : S_.Idx)
    (e : Host.reduce IntOp.andi (cmpf .olt (Host.absf a) (broadcastInDim T dims hb (constant (F := Ideal) S_ .f32 0x7F800000#32)))
      init hr hu j = 1#1) :
    AllReal a := by
  intro i
  have h1 := Host.reduce_andi_all _ _ hr hu j e i
  have h2 : Ideal.cmp .olt (max (a i) (-(a i))) (Ideal.ofBits .f32 0x7F800000#32) = 1#1 := h1
  rw [inf_pattern] at h2
  have h3 : decide (max (a i) (-(a i)) < ⊤) = true := ofBool_eq_one.1 h2
  exact real_of_abs_lt_top (a i) (of_decide_eq_true h3)

/-- The precondition holds (its one-bit result is 1) only if every entry of each of the thirteen arguments is a real number:
    a conjunction by "and" of one-bit words is 1 only if every conjunct is, and each conjunct is the lemma above. -/
theorem args_real [Cert.Pre_finite_inputs.Facts]
    (a0 : FVec Ideal S524288x10 .f32) (a1 : FVec Ideal S10x10 .f32) (a2 : FVec Ideal S1x10 .f32) (a3 : FVec Ideal S10x16 .f32) (a4 : FVec Ideal S1x16 .f32)
    (a5 : FVec Ideal S10x10 .f32) (a6 : FVec Ideal S1x10 .f32) (a7 : FVec Ideal S10x16 .f32) (a8 : FVec Ideal S1x16 .f32)
    (a9 : FVec Ideal S10x10 .f32) (a10 : FVec Ideal S1x10 .f32) (a11 : FVec Ideal S10x16 .f32) (a12 : FVec Ideal S1x16 .f32)
    (h : Cert.Pre_finite_inputs.fn (F := Ideal) a0 a1 a2 a3 a4 a5 a6 a7 a8 a9 a10 a11 a12 = (fun _ => 1#1)) :
    AllReal a0 ∧ AllReal a1 ∧ AllReal a2 ∧ AllReal a3 ∧ AllReal a4 ∧ AllReal a5 ∧ AllReal a6 ∧ AllReal a7 ∧ AllReal a8 ∧ AllReal a9 ∧ AllReal a10 ∧ AllReal a11 ∧ AllReal a12 := by
  have h0 := congrFun h (fun d => d.elim0)
  simp only [fn, fn_part1, fn_part2, fn_part3, andi, IntOp.andi_eq_one] at h0
  obtain ⟨⟨⟨⟨⟨⟨⟨⟨⟨⟨⟨⟨e0, e1⟩, e2⟩, e3⟩, e4⟩, e5⟩, e6⟩, e7⟩, e8⟩, e9⟩, e10⟩, e11⟩, e12⟩ := h0
  exact ⟨allReal_of_all _ _ _ a0 _ _ e0, allReal_of_all _ _ _ a1 _ _ e1, allReal_of_all _ _ _ a2 _ _ e2,
    allReal_of_all _ _ _ a3 _ _ e3, allReal_of_all _ _ _ a4 _ _ e4, allReal_of_all _ _ _ a5 _ _ e5,
    allReal_of_all _ _ _ a6 _ _ e6, allReal_of_all _ _ _ a7 _ _ e7, allReal_of_all _ _ _ a8 _ _ e8,
    allReal_of_all _ _ _ a9 _ _ e9, allReal_of_all _ _ _ a10 _ _ e10, allReal_of_all _ _ _ a11 _ _ e11,
    allReal_of_all _ _ _ a12 _ _ e12⟩

end Cert.FiniteArgs

end
-- ==== Proof.lean ====
/-
  The certificate of a fused three-head network's forward pass against its reference.

  Both programs compute, for each of 524288 rows x, the pre-activations z = max (x · W1 + b1) 0 · W2 + b2, where
  W1 (10 × 30), b1, the block-diagonal W2 (30 × 48) and b2 join the three heads' parameters, and return three
  524288 × 16 arrays: the first sixteen columns of z, the next sixteen, and the normalised exponentials of the last
  sixteen. The kernel normalises exp z directly; the reference first subtracts each row's maximum, takes its matrix
  products at full precision, and carries the six bias rows as one row that it cuts in two.

  Over the extended reals none of this changes a value once the arguments are finite, which the precondition
  says: roundings do not exist; the cuts of the joined bias row are the two bias rows; and with real logits the
  shift by a row's maximum multiplies numerator and denominator by the same positive real. Finiteness is used
  exactly there; the first two results agree for any arguments.

  The three frames (each program runs to the end without a fault and leaves its arguments unchanged) come from one
  run per program in which every array the region writes ends at what the body stored, block by block; the same
  runs, read through the 128 blocks of 4096 rows, give the result arrays as functions of the arguments.
-/
import proofs.«105853_g2000302393245824_pallasbulk_1178_2_alg».proof.Defs
import proofs.«105853_g2000302393245824_pallasbulk_1178_2_alg».proof.Proof.Gen.Kernel
import proofs.«105853_g2000302393245824_pallasbulk_1178_2_alg».proof.Proof.Gen.KernelIdeal
import proofs.«105853_g2000302393245824_pallasbulk_1178_2_alg».proof.Proof.Gen.ReferenceIdeal
import proofs.«105853_g2000302393245824_pallasbulk_1178_2_alg».proof.Proof.Gen.Pre_finite_inputs
import proofs.«105853_g2000302393245824_pallasbulk_1178_2_alg».proof.Proof.KernelFrame
import proofs.«105853_g2000302393245824_pallasbulk_1178_2_alg».proof.Proof.Results
import proofs.«105853_g2000302393245824_pallasbulk_1178_2_alg».proof.Proof.FiniteArgs
import Idealize.ShloMosaic.Adequacy
import Idealize.ShloMosaic.Init

noncomputable section

namespace Cert.Proof

open Idealize.ShloMosaic Idealize.ShloMosaic.TcCoe Idealize.SL.Sem Cert.Reals

/-- The printed kernel runs and keeps its arguments. -/
theorem frame_k : Cert.frame_Kernel := fun m ρ _ => Cert.Kernel.Fr.frame m ρ

/-- So does its reading over the extended reals, -/
theorem frame_ki : Cert.frame_KernelIdeal := fun m ρ _ => Cert.KernelIdeal.Fr.frame m ρ

/-- and so does the reference. -/
theorem frame_ri : Cert.frame_ReferenceIdeal := fun m ρ _ => Cert.ReferenceIdeal.Fr.frame m ρ

/-- The idealization rewrote nothing. -/
theorem preserves : Cert.preserves_Kernel_KernelIdeal := trivial

/-- From memories that agree on the thirteen finite arguments both programs end with the same three arrays. -/
theorem algebraic : Cert.algebraic_KernelIdeal_ReferenceIdeal := by
  intro m ρ m' ρ' hpre hagree
  refine ⟨_, _, _, Cert.KernelIdeal.Val.run (F := Ideal) m ρ, ?_⟩
  refine (θ_run Cert.ReferenceIdeal.defs _ _).mono (fun r h c => ?_) (Cert.ReferenceIdeal.Val.run (F := Ideal) m' ρ')
  obtain ⟨r0, r1, r2, rest⟩ := h c
  obtain ⟨g0, g1, g2, g3, g4, g5, g6, g7, g8, g9, g10, g11, g12⟩ := hagree c
  obtain ⟨hX, h1, h2, h3, h4, h5, h6, h7, h8, h9, h10, h11, h12⟩ := Cert.FiniteArgs.args_real _ _ _ _ _ _ _ _ _ _ _ _ _ (hpre c)
  refine ⟨r0.trans ?_, r1.trans ?_, r2.trans ?_, rest⟩
  · rw [Cert.ReferenceIdeal.Host.V_bias, Cert.ReferenceIdeal.Host.V_w1, Cert.ReferenceIdeal.Host.V_w2, Cert.KernelIdeal.Host.V_w1, Cert.KernelIdeal.Host.V_b1, Cert.KernelIdeal.Host.V_w2, Cert.KernelIdeal.Host.V_b2]
    exact Cert.Results.first_agree _ _ _ _ _ _ _ _ _ _ _ _ _ _ _ _ _ _ _ _ _ _ _ _ _ _ g0 g1 g2 g3 g4 g5 g6 g7 g8 g9 g10 g11 g12
  · rw [Cert.ReferenceIdeal.Host.V_bias, Cert.ReferenceIdeal.Host.V_w1, Cert.ReferenceIdeal.Host.V_w2, Cert.KernelIdeal.Host.V_w1, Cert.KernelIdeal.Host.V_b1, Cert.KernelIdeal.Host.V_w2, Cert.KernelIdeal.Host.V_b2]
    exact Cert.Results.second_agree _ _ _ _ _ _ _ _ _ _ _ _ _ _ _ _ _ _ _ _ _ _ _ _ _ _ g0 g1 g2 g3 g4 g5 g6 g7 g8 g9 g10 g11 g12
  · rw [Cert.ReferenceIdeal.Host.V_bias, Cert.ReferenceIdeal.Host.V_w1, Cert.ReferenceIdeal.Host.V_w2, Cert.KernelIdeal.Host.V_w1, Cert.KernelIdeal.Host.V_b1, Cert.KernelIdeal.Host.V_w2, Cert.KernelIdeal.Host.V_b2]
    exact Cert.Results.third_agree _ _ _ _ _ _ _ _ _ _ _ _ _ _ _ _ _ _ _ _ _ _ _ _ _ _ g0 g1 g2 g3 g4 g5 g6 g7 g8 g9 g10 g11 g12 hX h1 h2 h3 h4 h5 h6 h7 h8 h9 h10 h11 h12

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
